-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S14x10000x1536 : Shape := ⟨3, ![14, 10000, 1536]⟩
abbrev S14x1536x128 : Shape := ⟨3, ![14, 1536, 128]⟩
abbrev S14x128 : Shape := ⟨2, ![14, 128]⟩
abbrev S1792x128 : Shape := ⟨2, ![1792, 128]⟩
abbrev S128 : Shape := ⟨1, ![128]⟩
abbrev S8192 : Shape := ⟨1, ![8192]⟩
abbrev S_ : Shape := ⟨0, ![]⟩

class Facts : Prop where
  bcast_S_S14x10000x1536 : S_.BroadcastsInDim S14x10000x1536 (![] : Fin 0 → Fin S14x10000x1536.rank)
  reducesTo_S14x10000x1536_S_d0_1_2 : S14x10000x1536.ReducesTo [0, 1, 2] S_
  h_S_ : 0 < S_.numel
  bcast_S_S14x1536x128 : S_.BroadcastsInDim S14x1536x128 (![] : Fin 0 → Fin S14x1536x128.rank)
  reducesTo_S14x1536x128_S_d0_1_2 : S14x1536x128.ReducesTo [0, 1, 2] S_
  bcast_S_S14x128 : S_.BroadcastsInDim S14x128 (![] : Fin 0 → Fin S14x128.rank)
  reducesTo_S14x128_S_d0_1 : S14x128.ReducesTo [0, 1] S_
  bcast_S_S1792x128 : S_.BroadcastsInDim S1792x128 (![] : Fin 0 → Fin S1792x128.rank)
  reducesTo_S1792x128_S_d0_1 : S1792x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S1792x128 1) : IVec S_ 1 :=
  let main_c_5 : IVec S_ 1 := constantI S_ 1 1#1
  let main_v17 : IVec S_ 1 := (fun x v => Host.reduce IntOp.andi x v reducesTo_S1792x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S14x10000x1536 .f32) (main_arg1 : FVec F S14x1536x128 .f32) (main_arg2 : FVec F S14x128 .f32) (main_arg3 : FVec F S1792x128 .f32) (main_arg4 : FVec F S128 .f32) (main_arg5 : IVec S8192 32) : IVec S_ 1 :=
  let main_v0 : FVec F S14x10000x1536 .f32 := Host.absf main_arg0
  let main_cst : FVec F S_ .f32 := constant S_ .f32 0x7F800000#32
  let main_v1 : FVec F S14x10000x1536 .f32 := broadcastInDim S14x10000x1536 ![] bcast_S_S14x10000x1536 main_cst
  let main_v2 : IVec S14x10000x1536 1 := cmpf .olt main_v0 main_v1
  let main_c : IVec S_ 1 := constantI S_ 1 1#1
  let main_v3 : IVec S_ 1 := (fun x v => Host.reduce IntOp.andi x v reducesTo_S14x10000x1536_S_d0_1_2 h_S_) main_v2 main_c
  let main_v4 : FVec F S14x1536x128 .f32 := Host.absf main_arg1
  let main_cst_0 : FVec F S_ .f32 := constant S_ .f32 0x7F800000#32
  let main_v5 : FVec F S14x1536x128 .f32 := broadcastInDim S14x1536x128 ![] bcast_S_S14x1536x128 main_cst_0
  let main_v6 : IVec S14x1536x128 1 := cmpf .olt main_v4 main_v5
  let main_c_1 : IVec S_ 1 := constantI S_ 1 1#1
  let main_v7 : IVec S_ 1 := (fun x v => Host.reduce IntOp.andi x v reducesTo_S14x1536x128_S_d0_1_2 h_S_) main_v6 main_c_1
  let main_v8 : IVec S_ 1 := andi main_v3 main_v7
  let main_v9 : FVec F S14x128 .f32 := Host.absf main_arg2
  let main_cst_2 : FVec F S_ .f32 := constant S_ .f32 0x7F800000#32
  let main_v10 : FVec F S14x128 .f32 := broadcastInDim S14x128 ![] bcast_S_S14x128 main_cst_2
  let main_v11 : IVec S14x128 1 := cmpf .olt main_v9 main_v10
  let main_c_3 : IVec S_ 1 := constantI S_ 1 1#1
  let main_v12 : IVec S_ 1 := (fun x v => Host.reduce IntOp.andi x v reducesTo_S14x128_S_d0_1 h_S_) main_v11 main_c_3
  let main_v13 : IVec S_ 1 := andi main_v8 main_v12
  let main_v14 : FVec F S1792x128 .f32 := Host.absf main_arg3
  let main_cst_4 : FVec F S_ .f32 := constant S_ .f32 0x7F800000#32
  let main_v15 : FVec F S1792x128 .f32 := broadcastInDim S1792x128 ![] bcast_S_S1792x128 main_cst_4
  let main_v16 : IVec S1792x128 1 := cmpf .olt main_v14 main_v15
  fn_part1 (F := F) main_arg4 main_v13 main_v16
-- ==== Kernel.lean ====
abbrev S14x10000x1536 : Shape := ⟨3, ![14, 10000, 1536]⟩
abbrev S14x1536x128 : Shape := ⟨3, ![14, 1536, 128]⟩
abbrev S14x128 : Shape := ⟨2, ![14, 128]⟩
abbrev S1792x128 : Shape := ⟨2, ![1792, 128]⟩
abbrev S128 : Shape := ⟨1, ![128]⟩
abbrev S8192 : Shape := ⟨1, ![8192]⟩
abbrev S_ : Shape := ⟨0, ![]⟩
abbrev S8192x1 : Shape := ⟨2, ![8192, 1]⟩
abbrev S14x8192x1536 : Shape := ⟨3, ![14, 8192, 1536]⟩
abbrev S8192x128 : Shape := ⟨2, ![8192, 128]⟩
abbrev S14x256x1536 : Shape := ⟨3, ![14, 256, 1536]⟩
abbrev S256x128 : Shape := ⟨2, ![256, 128]⟩
abbrev S256x1792 : Shape := ⟨2, ![256, 1792]⟩
abbrev S1x256x1536 : Shape := ⟨3, ![1, 256, 1536]⟩
abbrev S256x1536 : Shape := ⟨2, ![256, 1536]⟩
abbrev S1x1536x128 : Shape := ⟨3, ![1, 1536, 128]⟩
abbrev S1536x128 : Shape := ⟨2, ![1536, 128]⟩
abbrev S1x128 : Shape := ⟨2, ![1, 128]⟩

abbrev nBuf : Space → Nat
  | .hbm => 19
  | .vmem => 9
  | .smem => 0
  | _ => 0

abbrev bufTy : (tb : Table) → Fin (tcTables nBuf tb) → BufTy
  | .hbm, ⟨0, _⟩ => ⟨S14x10000x1536, .f32⟩
  | .hbm, ⟨1, _⟩ => ⟨S14x1536x128, .f32⟩
  | .hbm, ⟨2, _⟩ => ⟨S14x128, .f32⟩
  | .hbm, ⟨3, _⟩ => ⟨S1792x128, .f32⟩
  | .hbm, ⟨4, _⟩ => ⟨S128, .f32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S14x8192x1536, .f32⟩
  | .hbm, ⟨15, _⟩ => ⟨S14x8192x1536, .bf16⟩
  | .hbm, ⟨16, _⟩ => ⟨S14x1536x128, .bf16⟩
  | .hbm, ⟨17, _⟩ => ⟨S1792x128, .bf16⟩
  | .hbm, ⟨18, _⟩ => ⟨S8192x128, .f32⟩
  | .local _ .vmem, ⟨0, _⟩ => ⟨S14x256x1536, .bf16⟩
  | .local _ .vmem, ⟨1, _⟩ => ⟨S14x256x1536, .bf16⟩
  | .local _ .vmem, ⟨2, _⟩ => ⟨S14x1536x128, .bf16⟩
  | .local _ .vmem, ⟨3, _⟩ => ⟨S14x128, .f32⟩
  | .local _ .vmem, ⟨4, _⟩ => ⟨S1792x128, .bf16⟩
  | .local _ .vmem, ⟨5, _⟩ => ⟨S128, .f32⟩
  | .local _ .vmem, ⟨6, _⟩ => ⟨S256x128, .f32⟩
  | .local _ .vmem, ⟨7, _⟩ => ⟨S256x128, .f32⟩
  | .local _ .vmem, ⟨8, _⟩ => ⟨S256x1792, .bf16⟩
  | _, _ => ⟨S14x10000x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S14x256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S14x1536x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S14x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1792x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bitsLt_bf16_f32 : FTy.bits .bf16 < FTy.bits .f32
  inb_S14x256x1536_S1x256x1536_0_0_0 : ∀ a, (![0, 0, 0] : Fin 3 → Nat) a + S1x256x1536.size a ≤ S14x256x1536.size a
  h_S1x256x1536 : 0 < S1x256x1536.numel
  shapeCasts_S1x256x1536_S256x1536 : S1x256x1536.ShapeCasts S256x1536
  inb_S14x1536x128_S1x1536x128_0_0_0 : ∀ a, (![0, 0, 0] : Fin 3 → Nat) a + S1x1536x128.size a ≤ S14x1536x128.size a
  h_S1x1536x128 : 0 < S1x1536x128.numel
  shapeCasts_S1x1536x128_S1536x128 : S1x1536x128.ShapeCasts S1536x128
  inb_S14x128_S1x128_0_0 : ∀ a, (![0, 0] : Fin 2 → Nat) a + S1x128.size a ≤ S14x128.size a
  h_S1x128 : 0 < S1x128.numel
  shapeCasts_S1x128_S128 : S1x128.ShapeCasts S128
  shapeCasts_S128_S1x128 : S128.ShapeCasts S1x128
  broadcasts_S1x128_S256x128 : S1x128.Broadcasts S256x128
  inb_S256x1792_S256x128_0_0 : ∀ a, (![0, 0] : Fin 2 → Nat) a + S256x128.size a ≤ S256x1792.size a
  h_S256x128 : 0 < S256x128.numel
  shapeCasts_S256x128_S256x128 : S256x128.ShapeCasts S256x128
  packedbf16_S256x1792_S256x128_0_0 : (Rect.unit (s := S256x1792) ![0, 0] S256x128.size inb_S256x1792_S256x128_0_0).PackedRows (EltTy.packing .bf16)
  inb_S14x256x1536_S1x256x1536_1_0_0 : ∀ a, (![1, 0, 0] : Fin 3 → Nat) a + S1x256x1536.size a ≤ S14x256x1536.size a
  inb_S14x1536x128_S1x1536x128_1_0_0 : ∀ a, (![1, 0, 0] : Fin 3 → Nat) a + S1x1536x128.size a ≤ S14x1536x128.size a
  inb_S14x128_S1x128_1_0 : ∀ a, (![1, 0] : Fin 2 → Nat) a + S1x128.size a ≤ S14x128.size a
  inb_S256x1792_S256x128_0_128 : ∀ a, (![0, 128] : Fin 2 → Nat) a + S256x128.size a ≤ S256x1792.size a
  packedbf16_S256x1792_S256x128_0_128 : (Rect.unit (s := S256x1792) ![0, 128] S256x128.size inb_S256x1792_S256x128_0_128).PackedRows (EltTy.packing .bf16)
  inb_S14x256x1536_S1x256x1536_2_0_0 : ∀ a, (![2, 0, 0] : Fin 3 → Nat) a + S1x256x1536.size a ≤ S14x256x1536.size a
  inb_S14x1536x128_S1x1536x128_2_0_0 : ∀ a, (![2, 0, 0] : Fin 3 → Nat) a + S1x1536x128.size a ≤ S14x1536x128.size a
  inb_S14x128_S1x128_2_0 : ∀ a, (![2, 0] : Fin 2 → Nat) a + S1x128.size a ≤ S14x128.size a
  inb_S256x1792_S256x128_0_256 : ∀ a, (![0, 256] : Fin 2 → Nat) a + S256x128.size a ≤ S256x1792.size a
  packedbf16_S256x1792_S256x128_0_256 : (Rect.unit (s := S256x1792) ![0, 256] S256x128.size inb_S256x1792_S256x128_0_256).PackedRows (EltTy.packing .bf16)
  inb_S14x256x1536_S1x256x1536_3_0_0 : ∀ a, (![3, 0, 0] : Fin 3 → Nat) a + S1x256x1536.size a ≤ S14x256x1536.size a
  inb_S14x1536x128_S1x1536x128_3_0_0 : ∀ a, (![3, 0, 0] : Fin 3 → Nat) a + S1x1536x128.size a ≤ S14x1536x128.size a
  inb_S14x128_S1x128_3_0 : ∀ a, (![3, 0] : Fin 2 → Nat) a + S1x128.size a ≤ S14x128.size a
  inb_S256x1792_S256x128_0_384 : ∀ a, (![0, 384] : Fin 2 → Nat) a + S256x128.size a ≤ S256x1792.size a
  packedbf16_S256x1792_S256x128_0_384 : (Rect.unit (s := S256x1792) ![0, 384] S256x128.size inb_S256x1792_S256x128_0_384).PackedRows (EltTy.packing .bf16)
  inb_S14x256x1536_S1x256x1536_4_0_0 : ∀ a, (![4, 0, 0] : Fin 3 → Nat) a + S1x256x1536.size a ≤ S14x256x1536.size a
  inb_S14x1536x128_S1x1536x128_4_0_0 : ∀ a, (![4, 0, 0] : Fin 3 → Nat) a + S1x1536x128.size a ≤ S14x1536x128.size a
  inb_S14x128_S1x128_4_0 : ∀ a, (![4, 0] : Fin 2 → Nat) a + S1x128.size a ≤ S14x128.size a
  inb_S256x1792_S256x128_0_512 : ∀ a, (![0, 512] : Fin 2 → Nat) a + S256x128.size a ≤ S256x1792.size a
  packedbf16_S256x1792_S256x128_0_512 : (Rect.unit (s := S256x1792) ![0, 512] S256x128.size inb_S256x1792_S256x128_0_512).PackedRows (EltTy.packing .bf16)
  inb_S14x256x1536_S1x256x1536_5_0_0 : ∀ a, (![5, 0, 0] : Fin 3 → Nat) a + S1x256x1536.size a ≤ S14x256x1536.size a
  inb_S14x1536x128_S1x1536x128_5_0_0 : ∀ a, (![5, 0, 0] : Fin 3 → Nat) a + S1x1536x128.size a ≤ S14x1536x128.size a
  inb_S14x128_S1x128_5_0 : ∀ a, (![5, 0] : Fin 2 → Nat) a + S1x128.size a ≤ S14x128.size a
  inb_S256x1792_S256x128_0_640 : ∀ a, (![0, 640] : Fin 2 → Nat) a + S256x128.size a ≤ S256x1792.size a
  packedbf16_S256x1792_S256x128_0_640 : (Rect.unit (s := S256x1792) ![0, 640] S256x128.size inb_S256x1792_S256x128_0_640).PackedRows (EltTy.packing .bf16)
  inb_S14x256x1536_S1x256x1536_6_0_0 : ∀ a, (![6, 0, 0] : Fin 3 → Nat) a + S1x256x1536.size a ≤ S14x256x1536.size a
  inb_S14x1536x128_S1x1536x128_6_0_0 : ∀ a, (![6, 0, 0] : Fin 3 → Nat) a + S1x1536x128.size a ≤ S14x1536x128.size a
  inb_S14x128_S1x128_6_0 : ∀ a, (![6, 0] : Fin 2 → Nat) a + S1x128.size a ≤ S14x128.size a
  inb_S256x1792_S256x128_0_768 : ∀ a, (![0, 768] : Fin 2 → Nat) a + S256x128.size a ≤ S256x1792.size a
  packedbf16_S256x1792_S256x128_0_768 : (Rect.unit (s := S256x1792) ![0, 768] S256x128.size inb_S256x1792_S256x128_0_768).PackedRows (EltTy.packing .bf16)
  inb_S14x256x1536_S1x256x1536_7_0_0 : ∀ a, (![7, 0, 0] : Fin 3 → Nat) a + S1x256x1536.size a ≤ S14x256x1536.size a
  inb_S14x1536x128_S1x1536x128_7_0_0 : ∀ a, (![7, 0, 0] : Fin 3 → Nat) a + S1x1536x128.size a ≤ S14x1536x128.size a
  inb_S14x128_S1x128_7_0 : ∀ a, (![7, 0] : Fin 2 → Nat) a + S1x128.size a ≤ S14x128.size a
  inb_S256x1792_S256x128_0_896 : ∀ a, (![0, 896] : Fin 2 → Nat) a + S256x128.size a ≤ S256x1792.size a
  packedbf16_S256x1792_S256x128_0_896 : (Rect.unit (s := S256x1792) ![0, 896] S256x128.size inb_S256x1792_S256x128_0_896).PackedRows (EltTy.packing .bf16)
  inb_S14x256x1536_S1x256x1536_8_0_0 : ∀ a, (![8, 0, 0] : Fin 3 → Nat) a + S1x256x1536.size a ≤ S14x256x1536.size a
  inb_S14x1536x128_S1x1536x128_8_0_0 : ∀ a, (![8, 0, 0] : Fin 3 → Nat) a + S1x1536x128.size a ≤ S14x1536x128.size a
  inb_S14x128_S1x128_8_0 : ∀ a, (![8, 0] : Fin 2 → Nat) a + S1x128.size a ≤ S14x128.size a
  inb_S256x1792_S256x128_0_1024 : ∀ a, (![0, 1024] : Fin 2 → Nat) a + S256x128.size a ≤ S256x1792.size a
  packedbf16_S256x1792_S256x128_0_1024 : (Rect.unit (s := S256x1792) ![0, 1024] S256x128.size inb_S256x1792_S256x128_0_1024).PackedRows (EltTy.packing .bf16)
  inb_S14x256x1536_S1x256x1536_9_0_0 : ∀ a, (![9, 0, 0] : Fin 3 → Nat) a + S1x256x1536.size a ≤ S14x256x1536.size a
  inb_S14x1536x128_S1x1536x128_9_0_0 : ∀ a, (![9, 0, 0] : Fin 3 → Nat) a + S1x1536x128.size a ≤ S14x1536x128.size a
  inb_S14x128_S1x128_9_0 : ∀ a, (![9, 0] : Fin 2 → Nat) a + S1x128.size a ≤ S14x128.size a
  inb_S256x1792_S256x128_0_1152 : ∀ a, (![0, 1152] : Fin 2 → Nat) a + S256x128.size a ≤ S256x1792.size a
  packedbf16_S256x1792_S256x128_0_1152 : (Rect.unit (s := S256x1792) ![0, 1152] S256x128.size inb_S256x1792_S256x128_0_1152).PackedRows (EltTy.packing .bf16)
  inb_S14x256x1536_S1x256x1536_10_0_0 : ∀ a, (![10, 0, 0] : Fin 3 → Nat) a + S1x256x1536.size a ≤ S14x256x1536.size a
  inb_S14x1536x128_S1x1536x128_10_0_0 : ∀ a, (![10, 0, 0] : Fin 3 → Nat) a + S1x1536x128.size a ≤ S14x1536x128.size a
  inb_S14x128_S1x128_10_0 : ∀ a, (![10, 0] : Fin 2 → Nat) a + S1x128.size a ≤ S14x128.size a
  inb_S256x1792_S256x128_0_1280 : ∀ a, (![0, 1280] : Fin 2 → Nat) a + S256x128.size a ≤ S256x1792.size a
  packedbf16_S256x1792_S256x128_0_1280 : (Rect.unit (s := S256x1792) ![0, 1280] S256x128.size inb_S256x1792_S256x128_0_1280).PackedRows (EltTy.packing .bf16)
  inb_S14x256x1536_S1x256x1536_11_0_0 : ∀ a, (![11, 0, 0] : Fin 3 → Nat) a + S1x256x1536.size a ≤ S14x256x1536.size a
  inb_S14x1536x128_S1x1536x128_11_0_0 : ∀ a, (![11, 0, 0] : Fin 3 → Nat) a + S1x1536x128.size a ≤ S14x1536x128.size a
  inb_S14x128_S1x128_11_0 : ∀ a, (![11, 0] : Fin 2 → Nat) a + S1x128.size a ≤ S14x128.size a
  inb_S256x1792_S256x128_0_1408 : ∀ a, (![0, 1408] : Fin 2 → Nat) a + S256x128.size a ≤ S256x1792.size a
  packedbf16_S256x1792_S256x128_0_1408 : (Rect.unit (s := S256x1792) ![0, 1408] S256x128.size inb_S256x1792_S256x128_0_1408).PackedRows (EltTy.packing .bf16)
  inb_S14x256x1536_S1x256x1536_12_0_0 : ∀ a, (![12, 0, 0] : Fin 3 → Nat) a + S1x256x1536.size a ≤ S14x256x1536.size a
  inb_S14x1536x128_S1x1536x128_12_0_0 : ∀ a, (![12, 0, 0] : Fin 3 → Nat) a + S1x1536x128.size a ≤ S14x1536x128.size a
  inb_S14x128_S1x128_12_0 : ∀ a, (![12, 0] : Fin 2 → Nat) a + S1x128.size a ≤ S14x128.size a
  inb_S256x1792_S256x128_0_1536 : ∀ a, (![0, 1536] : Fin 2 → Nat) a + S256x128.size a ≤ S256x1792.size a
  packedbf16_S256x1792_S256x128_0_1536 : (Rect.unit (s := S256x1792) ![0, 1536] S256x128.size inb_S256x1792_S256x128_0_1536).PackedRows (EltTy.packing .bf16)
  inb_S14x256x1536_S1x256x1536_13_0_0 : ∀ a, (![13, 0, 0] : Fin 3 → Nat) a + S1x256x1536.size a ≤ S14x256x1536.size a
  inb_S14x1536x128_S1x1536x128_13_0_0 : ∀ a, (![13, 0, 0] : Fin 3 → Nat) a + S1x1536x128.size a ≤ S14x1536x128.size a
  inb_S14x128_S1x128_13_0 : ∀ a, (![13, 0] : Fin 2 → Nat) a + S1x128.size a ≤ S14x128.size a
  inb_S256x1792_S256x128_0_1664 : ∀ a, (![0, 1664] : Fin 2 → Nat) a + S256x128.size a ≤ S256x1792.size a
  packedbf16_S256x1792_S256x128_0_1664 : (Rect.unit (s := S256x1792) ![0, 1664] S256x128.size inb_S256x1792_S256x128_0_1664).PackedRows (EltTy.packing .bf16)
  inb_S256x1792_S256x1792_0_0 : ∀ a, (![0, 0] : Fin 2 → Nat) a + S256x1792.size a ≤ S256x1792.size a
  h_S256x1792 : 0 < S256x1792.numel
  inb_S1792x128_S1792x128_0_0 : ∀ a, (![0, 0] : Fin 2 → Nat) a + S1792x128.size a ≤ S1792x128.size a
  h_S1792x128 : 0 < S1792x128.numel
  shapeCasts_S1792x128_S1792x128 : S1792x128.ShapeCasts S1792x128
  inb_S128_S128_0 : ∀ a, (![0] : Fin 1 → Nat) a + S128.size a ≤ S128.size a
  h_S128 : 0 < S128.numel
  inb_S256x128_S256x128_0_0 : ∀ a, (![0, 0] : Fin 2 → Nat) a + S256x128.size a ≤ S256x128.size a
  gather_S14x10000x1536_S8192x1_S14x8192x1536_02_1_n_n_1_1_1411536_wf : GatherDims.WF S14x10000x1536 S8192x1 S14x8192x1536 [0, 2] [1] [] [1] [] 1 ![14, 1, 1536]
  dot_S256x1536_S1536x128_S256x128_1_0_0_1_n_n_wf : DotDims.WF S256x1536 S1536x128 S256x128 [1] [0] [0] [1] [] []
  dot_S256x1792_S1792x128_S256x128_1_0_0_1_n_n_wf : DotDims.WF S256x1792 S1792x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S14x256x1536.size a ≤ S14x8192x1536.size a
  hwx0_0 : ∀ i : grid0.Coords, EltTy.bits .bf16 = 32 ∨ (Rect.block (s := S14x8192x1536) S14x256x1536.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S14x1536x128.size a ≤ S14x1536x128.size a
  hwx0_1 : ∀ i : grid0.Coords, EltTy.bits .bf16 = 32 ∨ (Rect.block (s := S14x1536x128) S14x1536x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S14x128.size a ≤ S14x128.size a
  hwx0_2 : ∀ i : grid0.Coords, EltTy.bits .f32 = 32 ∨ (Rect.block (s := S14x128) S14x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1792x128.size a ≤ S1792x128.size a
  hwx0_3 : ∀ i : grid0.Coords, EltTy.bits .bf16 = 32 ∨ (Rect.block (s := S1792x128) S1792x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S8192x128.size a
  hwx0_5 : ∀ i : grid0.Coords, EltTy.bits .f32 = 32 ∨ (Rect.block (s := S8192x128) S256x128.size (cc0_transform_5 i) (hinb0_5 i)).WholeWords (EltTy.packing .f32)

variable [Facts₀]

def gather_S14x10000x1536_S8192x1_S14x8192x1536_02_1_n_n_1_1_1411536 : GatherDims S14x10000x1536 S8192x1 S14x8192x1536 where
  offsetDims := [0, 2]
  collapsedSliceDims := [1]
  operandBatchingDims := []
  startIndicesBatchingDims := []
  startIndexMap := [1]
  indexVectorDim := 1
  sliceSizes := ![14, 1, 1536]
  wf := gather_S14x10000x1536_S8192x1_S14x8192x1536_02_1_n_n_1_1_1411536_wf
def dot_S256x1536_S1536x128_S256x128_1_0_0_1_n_n : DotDims S256x1536 S1536x128 S256x128 where
  lhsContracting := [1]
  rhsContracting := [0]
  lhsNonContracting := [0]
  rhsNonContracting := [1]
  lhsBatch := []
  rhsBatch := []
  wf := dot_S256x1536_S1536x128_S256x128_1_0_0_1_n_n_wf
def dot_S256x1792_S1792x128_S256x128_1_0_0_1_n_n : DotDims S256x1792 S1792x128 S256x128 where
  lhsContracting := [1]
  rhsContracting := [0]
  lhsNonContracting := [0]
  rhsNonContracting := [1]
  lhsBatch := []
  rhsBatch := []
  wf := dot_S256x1792_S1792x128_S256x128_1_0_0_1_n_n_wf

abbrev win0_0 : Pipeline.Window sig grid0 :=
  Pipeline.Window.ofSpec (Memref.whole main_v7) S14x256x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S14x1536x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S14x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1792x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S14x10000x1536 : Shape := ⟨3, ![14, 10000, 1536]⟩
abbrev S14x1536x128 : Shape := ⟨3, ![14, 1536, 128]⟩
abbrev S14x128 : Shape := ⟨2, ![14, 128]⟩
abbrev S1792x128 : Shape := ⟨2, ![1792, 128]⟩
abbrev S128 : Shape := ⟨1, ![128]⟩
abbrev S8192 : Shape := ⟨1, ![8192]⟩
abbrev S_ : Shape := ⟨0, ![]⟩
abbrev S8192x1 : Shape := ⟨2, ![8192, 1]⟩
abbrev S14x8192x1536 : Shape := ⟨3, ![14, 8192, 1536]⟩
abbrev S14x8192x128 : Shape := ⟨3, ![14, 8192, 128]⟩
abbrev S14x1x128 : Shape := ⟨3, ![14, 1, 128]⟩
abbrev S8192x14x128 : Shape := ⟨3, ![8192, 14, 128]⟩
abbrev S8192x1792 : Shape := ⟨2, ![8192, 1792]⟩
abbrev S8192x128 : Shape := ⟨2, ![8192, 128]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S14x10000x1536, .f32⟩
  | .hbm, ⟨1, _⟩ => ⟨S14x1536x128, .f32⟩
  | .hbm, ⟨2, _⟩ => ⟨S14x128, .f32⟩
  | .hbm, ⟨3, _⟩ => ⟨S1792x128, .f32⟩
  | .hbm, ⟨4, _⟩ => ⟨S128, .f32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S14x8192x1536, .f32⟩
  | .hbm, ⟨15, _⟩ => ⟨S14x8192x128, .f32⟩
  | .hbm, ⟨16, _⟩ => ⟨S14x1x128, .f32⟩
  | .hbm, ⟨17, _⟩ => ⟨S14x8192x128, .f32⟩
  | .hbm, ⟨18, _⟩ => ⟨S14x8192x128, .f32⟩
  | .hbm, ⟨19, _⟩ => ⟨S_, .f32⟩
  | .hbm, ⟨20, _⟩ => ⟨S_, .f32⟩
  | .hbm, ⟨21, _⟩ => ⟨S14x8192x128, .f32⟩
  | .hbm, ⟨22, _⟩ => ⟨S14x8192x128, .i1⟩
  | .hbm, ⟨23, _⟩ => ⟨S_, .f32⟩
  | .hbm, ⟨24, _⟩ => ⟨S14x8192x128, .f32⟩
  | .hbm, ⟨25, _⟩ => ⟨S14x8192x128, .f32⟩
  | .hbm, ⟨26, _⟩ => ⟨S14x8192x128, .f32⟩
  | .hbm, ⟨27, _⟩ => ⟨S8192x14x128, .f32⟩
  | .hbm, ⟨28, _⟩ => ⟨S8192x1792, .f32⟩
  | .hbm, ⟨29, _⟩ => ⟨S8192x128, .f32⟩
  | .hbm, ⟨30, _⟩ => ⟨S1x128, .f32⟩
  | .hbm, ⟨31, _⟩ => ⟨S8192x128, .f32⟩
  | .hbm, ⟨32, _⟩ => ⟨S8192x128, .f32⟩
  | .hbm, ⟨33, _⟩ => ⟨S_, .f32⟩
  | .hbm, ⟨34, _⟩ => ⟨S_, .f32⟩
  | .hbm, ⟨35, _⟩ => ⟨S8192x128, .f32⟩
  | .hbm, ⟨36, _⟩ => ⟨S8192x128, .i1⟩
  | .hbm, ⟨37, _⟩ => ⟨S_, .f32⟩
  | .hbm, ⟨38, _⟩ => ⟨S8192x128, .f32⟩
  | .hbm, ⟨39, _⟩ => ⟨S8192x128, .f32⟩
  | .hbm, ⟨40, _⟩ => ⟨S8192x128, .f32⟩
  | _, _ => ⟨S14x10000x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_call1_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v18 : Ref sig .tc := ⟨.hbm, 40, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S14x128_S14x1x128_0_2 : S14x128.BroadcastsInDim S14x1x128 (![0, 2] : Fin 2 → Fin S14x1x128.rank)
  bcast_S14x1x128_S14x8192x128_0_1_2 : S14x1x128.BroadcastsInDim S14x8192x128 (![0, 1, 2] : Fin 3 → Fin S14x8192x128.rank)
  bcast_S_S14x8192x128 : S_.BroadcastsInDim S14x8192x128 (![] : Fin 0 → Fin S14x8192x128.rank)
  transposes_S14x8192x128_S8192x14x128_1_0_2 : S14x8192x128.Transposes [1, 0, 2] S8192x14x128
  shapeCasts_S8192x14x128_S8192x1792 : S8192x14x128.ShapeCasts S8192x1792
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  gather_S14x10000x1536_S8192x1_S14x8192x1536_02_1_n_n_1_1_1411536_wf : GatherDims.WF S14x10000x1536 S8192x1 S14x8192x1536 [0, 2] [1] [] [1] [] 1 ![14, 1, 1536]
  dot_S14x8192x1536_S14x1536x128_S14x8192x128_2_1_1_2_0_0_wf : DotDims.WF S14x8192x1536 S14x1536x128 S14x8192x128 [2] [1] [1] [2] [0] [0]
  dot_S8192x1792_S1792x128_S8192x128_1_0_0_1_n_n_wf : DotDims.WF S8192x1792 S1792x128 S8192x128 [1] [0] [0] [1] [] []

variable [Facts₀]

def gather_S14x10000x1536_S8192x1_S14x8192x1536_02_1_n_n_1_1_1411536 : GatherDims S14x10000x1536 S8192x1 S14x8192x1536 where
  offsetDims := [0, 2]
  collapsedSliceDims := [1]
  operandBatchingDims := []
  startIndicesBatchingDims := []
  startIndexMap := [1]
  indexVectorDim := 1
  sliceSizes := ![14, 1, 1536]
  wf := gather_S14x10000x1536_S8192x1_S14x8192x1536_02_1_n_n_1_1_1411536_wf
def dot_S14x8192x1536_S14x1536x128_S14x8192x128_2_1_1_2_0_0 : DotDims S14x8192x1536 S14x1536x128 S14x8192x128 where
  lhsContracting := [2]
  rhsContracting := [1]
  lhsNonContracting := [1]
  rhsNonContracting := [2]
  lhsBatch := [0]
  rhsBatch := [0]
  wf := dot_S14x8192x1536_S14x1536x128_S14x8192x128_2_1_1_2_0_0_wf
def dot_S8192x1792_S1792x128_S8192x128_1_0_0_1_n_n : DotDims S8192x1792 S1792x128 S8192x128 where
  lhsContracting := [1]
  rhsContracting := [0]
  lhsNonContracting := [0]
  rhsNonContracting := [1]
  lhsBatch := []
  rhsBatch := []
  wf := dot_S8192x1792_S1792x128_S8192x128_1_0_0_1_n_n_wf

class Facts : Prop extends Facts₀ where

variable [Facts]
-- ==== Proof.LibDotRead.lean ====
/-
  A contraction over one axis, read at an index, on the extended reals.

  A product of two arrays that contracts ONE axis of each, whatever batch and free axes surround it, is at every result
  index the sum, over the shared axis's coordinate k, of the left operand at an index L k times the right operand at an
  index R k.  The dimension numbers determine L and R: a batch axis or a free axis of an operand reads one coordinate of
  the result index (its position among the result's axes is: the batch axes first, then the left operand's free axes, then
  the right operand's), and the contracted axis reads k.  The lemmas below give each such coordinate as a number, so
  that for literal dimension numbers the two indices L k and R k can be written out by coordinates; the sum itself is the
  kernel's product into a zero accumulator and the host's general product alike.
-/
import Idealize.ShloMosaic.PureOps.Ideal.Laws
import Idealize.ShloMosaic.Lib.ValueIdx

noncomputable section

namespace Cert.DotRead

open Idealize.ShloMosaic Idealize.ShloMosaic.ValueIdx

variable {sl sr so : Shape} (d : DotDims sl sr so)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

/-- A batch axis of the left operand reads the result index at the axis's place among the batch axes. -/
theorem lhs_batch_val (j : so.Idx) (k : d.contr.Idx) (a : Fin sl.rank) (hb : a ∈ d.lhsBatch)
    (q : Fin so.rank) (hq : d.lhsBatch.idxOf a = q.val) : (d.lhsIdx j k a).val = (j q).val := by
  unfold DotDims.lhsIdx
  rw [dif_pos hb]
  simp only [Fin.val_cast]
  exact val_congr j _ _ _ q.isLt hq

/-- A free axis of the left operand reads the result index after the batch axes. -/
theorem lhs_free_val (j : so.Idx) (k : d.contr.Idx) (a : Fin sl.rank) (hb : a ∉ d.lhsBatch) (hn : a ∈ d.lhsNonContracting)
    (q : Fin so.rank) (hq : d.lhsBatch.length + d.lhsNonContracting.idxOf a = q.val) : (d.lhsIdx j k a).val = (j q).val := by
  unfold DotDims.lhsIdx
  rw [dif_neg hb, dif_pos hn]
  simp only [Fin.val_cast]
  exact val_congr j _ _ _ q.isLt hq

/-- A batch axis of the right operand reads the result index at the axis's place among the batch axes. -/
theorem rhs_batch_val (j : so.Idx) (k : d.contr.Idx) (a : Fin sr.rank) (hb : a ∈ d.rhsBatch)
    (q : Fin so.rank) (hq : d.rhsBatch.idxOf a = q.val) : (d.rhsIdx j k a).val = (j q).val := by
  unfold DotDims.rhsIdx
  rw [dif_pos hb]
  simp only [Fin.val_cast]
  exact val_congr j _ _ _ q.isLt hq

/-- A free axis of the right operand reads the result index after the batch axes and the left operand's free axes. -/
theorem rhs_free_val (j : so.Idx) (k : d.contr.Idx) (a : Fin sr.rank) (hb : a ∉ d.rhsBatch) (hn : a ∈ d.rhsNonContracting)
    (q : Fin so.rank) (hq : d.lhsBatch.length + d.lhsNonContracting.length + d.rhsNonContracting.idxOf a = q.val) :
    (d.rhsIdx j k a).val = (j q).val := by
  unfold DotDims.rhsIdx
  rw [dif_neg hb, dif_pos hn]
  simp only [Fin.val_cast]
  exact val_congr j _ _ _ q.isLt hq

/-- One contracted axis: the contraction shape has one axis … -/
theorem contr_rank_one {cl : Fin sl.rank} (hc : d.lhsContracting = [cl]) : d.contr.rank = 1 := by
  rw [d.rank_contr, hc]; rfl

/-- … of the contracted axis's extent. -/
theorem contr_size_one {cl : Fin sl.rank} (hc : d.lhsContracting = [cl]) :
    d.contr.size ⟨0, by rw [contr_rank_one d hc]; exact Nat.one_pos⟩ = sl.size cl := by
  rw [d.size_contr 0 (by rw [hc]; exact Nat.one_pos)]
  simp only [hc, List.getElem_cons_zero]

section One

variable (K : Nat) (hr : d.contr.rank = 1) (hs : d.contr.size ⟨0, by omega⟩ = K)

/-- The left operand's contracted axis reads the shared coordinate. -/
theorem lhs_contr_val {cl : Fin sl.rank} (hc : d.lhsContracting = [cl]) (j : so.Idx) (k : Fin K) :
    (d.lhsIdx j ((contrEquiv1 d K hr hs).symm k) cl).val = k.val :=
  (d.lhsIdx_val_of_single hc _ _).trans (contrEquiv1_symm_val d K hr hs k)

/-- The right operand's contracted axis reads the shared coordinate. -/
theorem rhs_contr_val {cr : Fin sr.rank} (hc : d.rhsContracting = [cr]) (j : so.Idx) (k : Fin K) :
    (d.rhsIdx j ((contrEquiv1 d K hr hs).symm k) cr).val = k.val :=
  (d.rhsIdx_val_of_single hc _ _).trans (contrEquiv1_symm_val d K hr hs k)

/-- A kernel's product into a zero accumulator: the sum over the shared coordinate. -/
theorem matmul_zero_read {φ₁ φ₂ : FTy} (prec : Option ContractPrecision) (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.matmul d prec lhs rhs (constant so .f32 0x00000000#32) j = ∑ k : Fin K, lhs (L k) * rhs (R k) := by
  rw [Ideal.matmul_constant_zero_apply, ← Equiv.sum_comp (contrEquiv1 d K hr hs).symm]
  exact Finset.sum_congr rfl fun k _ => by rw [hL k, hR k]

/-- The host's general product: the same sum. -/
theorem dotGeneral_read {φ₁ φ₂ : FTy} (prec : Option ContractPrecision) (sched : HostSchedule)
    (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.dotGeneral d prec sched lhs rhs j = ∑ k : Fin K, lhs (L k) * rhs (R k) := by
  rw [Ideal.dotGeneral_apply, ← Equiv.sum_comp (contrEquiv1 d K hr hs).symm]
  exact Finset.sum_congr rfl fun k _ => by rw [hL k, hR k]

end One

end Cert.DotRead

end
-- ==== Proof.LibMatmulRows.lean ====
/-
  The product of an [M, K] array with a [K, N] array, read at one entry.

  Both spellings of the product contract the left operand's second axis with the right operand's first and keep the
  left operand's rows and the right operand's columns as the result's two axes.  On the extended reals the entry in
  row p and column q is then the sum over the shared coordinate k of (left at (p, k)) times (right at (k, q)) — for
  the kernel's product into a zero accumulator and for the host's general product alike, whatever M, K and N are.
  A product computed a block of rows at a time therefore has the same entries as the product of the whole arrays.
-/
import proofs.«140699_j36077725287020_2_alg».proof.Proof.LibDotRead

noncomputable section

namespace Cert.MatmulRows

open Idealize.ShloMosaic Idealize.ShloMosaic.ValueIdx

variable {M K N : Nat} (d : DotDims (⟨2, ![M, K]⟩ : Shape) (⟨2, ![K, N]⟩ : Shape) (⟨2, ![M, N]⟩ : Shape))
  (hlc : d.lhsContracting = [1]) (hrc : d.rhsContracting = [0])
  (hln : d.lhsNonContracting = [0]) (hrn : d.rhsNonContracting = [1])
  (hlb : d.lhsBatch = []) (hrb : d.rhsBatch = [])

include hlc in
theorem contr_rank : d.contr.rank = 1 := Cert.DotRead.contr_rank_one d hlc

include hlc in
theorem contr_size : d.contr.size ⟨0, by rw [contr_rank d hlc]; exact Nat.one_pos⟩ = K :=
  Cert.DotRead.contr_size_one d hlc

include hlc hln hlb in
/-- The left operand is read in the result's row, at the shared coordinate. -/
theorem lhs_read (p : Fin M) (q : Fin N) (k : Fin K) :
    d.lhsIdx (ix2 p q) ((contrEquiv1 d K (contr_rank d hlc) (contr_size d hlc)).symm k) = ix2 p k := by
  funext a
  apply Fin.ext
  match a with
  | ⟨0, _⟩ =>
    exact Cert.DotRead.lhs_free_val d (ix2 p q) _ 0 (by rw [hlb]; exact List.not_mem_nil) (by rw [hln]; exact List.mem_singleton.mpr rfl)
      0 (by rw [hlb, hln]; rfl)
  | ⟨1, _⟩ => exact Cert.DotRead.lhs_contr_val d K (contr_rank d hlc) (contr_size d hlc) hlc (ix2 p q) k

include hlc hrc hln hrn hlb hrb in
/-- The right operand is read at the shared coordinate, in the result's column. -/
theorem rhs_read (p : Fin M) (q : Fin N) (k : Fin K) :
    d.rhsIdx (ix2 p q) ((contrEquiv1 d K (contr_rank d hlc) (contr_size d hlc)).symm k) = ix2 k q := by
  funext a
  apply Fin.ext
  match a with
  | ⟨0, _⟩ => exact Cert.DotRead.rhs_contr_val d K (contr_rank d hlc) (contr_size d hlc) hrc (ix2 p q) k
  | ⟨1, _⟩ =>
    exact Cert.DotRead.rhs_free_val d (ix2 p q) _ 1 (by rw [hrb]; exact List.not_mem_nil) (by rw [hrn]; exact List.mem_singleton.mpr rfl)
      1 (by rw [hlb, hln, hrn]; rfl)

include hlc hrc hln hrn hlb hrb in
/-- The kernel's product into a zero accumulator, entry (p, q). -/
theorem matmul_zero_ix2 {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, lhs (ix2 p k) * rhs (ix2 k q) :=
  Cert.DotRead.matmul_zero_read d K (contr_rank d hlc) (contr_size d hlc) prec lhs rhs (ix2 p q) (fun k => ix2 p k) (fun k => ix2 k q)
    (lhs_read d hlc hln hlb p q) (rhs_read d hlc hrc hln hrn hlb hrb p q)

include hlc hrc hln hrn hlb hrb in
/-- The host's general product, entry (p, q). -/
theorem dotGeneral_ix2 {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral d prec sched lhs rhs (ix2 p q) = ∑ k : Fin K, lhs (ix2 p k) * rhs (ix2 k q) :=
  Cert.DotRead.dotGeneral_read d K (contr_rank d hlc) (contr_size d hlc) prec sched lhs rhs (ix2 p q) (fun k => ix2 p k) (fun k => ix2 k q)
    (lhs_read d hlc hln hlb p q) (rhs_read d hlc hrc hln hrn hlb hrb p q)

end Cert.MatmulRows

end
-- ==== Proof.Spec.lean ====
/-
  What both programs compute, entry by entry, on the extended reals.

  For a batch entry n, the row of features gathered for it under each of the fourteen edge types e is multiplied into
  that type's weights and its bias row added; the leaky rectifier turns each of the 14 × 128 numbers z into z where z is
  at least zero and into slope · z elsewhere.  Laid side by side in edge-type order these are the 1792 features of the
  last layer, feature j coming from edge type j / 128 at position j mod 128; the last layer multiplies them into its
  weights, adds its bias row and rectifies again.  The result at (n, k) reads the gathered array in row n only, so a
  block of rows of the gathered array gives the same rows of the result as the whole array does.
-/
import Idealize.ShloMosaic.PureOps.Ideal
import Idealize.ShloMosaic.Lib.ValueIdx

noncomputable section

namespace Cert.Spec

open Idealize.ShloMosaic Idealize.ShloMosaic.ValueIdx

/-- The leaky rectifier: the number itself where it is at least zero, the slope's multiple of it elsewhere. -/
def lrelu (z : EReal) : EReal :=
  Scalar.select (FloatOps.cmpf (F := Ideal) (φ := .f32) .oge z (Ideal.ofBits .f32 0x00000000#32)) z
    (Ideal.ofBits .f32 0x3C23D70A#32 * z)

/-- The edge type a feature of the last layer comes from, -/
def featE (j : Fin 1792) : Fin 14 := ⟨j.val / 128, by have := j.isLt; omega⟩

/-- and its position among that type's 128 outputs. -/
def featD (j : Fin 1792) : Fin 128 := ⟨j.val % 128, Nat.mod_lt _ (by norm_num)⟩

theorem feat_val (j : Fin 1792) : (featE j).val * 128 + (featD j).val = j.val := by
  show j.val / 128 * 128 + j.val % 128 = j.val
  omega

/-- Output d of edge type e for batch row n: the row's features times the type's weights, plus the bias, rectified. -/
def hid {N : Nat} (G : (⟨3, ![14, N, 1536]⟩ : Shape).Idx → EReal) (W : (⟨3, ![14, 1536, 128]⟩ : Shape).Idx → EReal)
    (b : (⟨2, ![14, 128]⟩ : Shape).Idx → EReal) (e : Fin 14) (n : Fin N) (d : Fin 128) : EReal :=
  lrelu ((∑ i : Fin 1536, G (ix3 e n i) * W (ix3 e i d)) + b (ix2 e d))

/-- The result at batch row n, output k. -/
def out {N : Nat} (G : (⟨3, ![14, N, 1536]⟩ : Shape).Idx → EReal) (W : (⟨3, ![14, 1536, 128]⟩ : Shape).Idx → EReal)
    (b : (⟨2, ![14, 128]⟩ : Shape).Idx → EReal) (Wh : (⟨2, ![1792, 128]⟩ : Shape).Idx → EReal)
    (bh : (⟨1, ![128]⟩ : Shape).Idx → EReal) (n : Fin N) (k : Fin 128) : EReal :=
  lrelu ((∑ j : Fin 1792, hid G W b (featE j) n (featD j) * Wh (ix2 j k)) + bh (ix1 k))

/-- The result in row n depends on the gathered features through row n alone. -/
theorem out_rows {N N' : Nat} (G : (⟨3, ![14, N, 1536]⟩ : Shape).Idx → EReal) (G' : (⟨3, ![14, N', 1536]⟩ : Shape).Idx → EReal)
    (W : (⟨3, ![14, 1536, 128]⟩ : Shape).Idx → EReal) (b : (⟨2, ![14, 128]⟩ : Shape).Idx → EReal)
    (Wh : (⟨2, ![1792, 128]⟩ : Shape).Idx → EReal) (bh : (⟨1, ![128]⟩ : Shape).Idx → EReal) (n : Fin N) (n' : Fin N')
    (k : Fin 128) (h : ∀ (e : Fin 14) (i : Fin 1536), G (ix3 e n i) = G' (ix3 e n' i)) :
    out G W b Wh bh n k = out G' W b Wh bh n' k := by
  unfold out hid
  simp only [h]

end Cert.Spec

end
-- ==== Proof.KernelEdge.lean ====
/-
  The kernel body's arithmetic, entry by entry, on the extended reals.

  One edge layer of the body takes a [1, 256, 1536] slab of gathered rows, a [1, 1536, 128] slab of weights and a [1, 128]
  bias row: it drops the slabs' leading unit axis, multiplies into a zero accumulator, adds the bias row to every one of
  the 256 rows, applies the leaky rectifier and narrows the format (no change on the extended reals).  At (r, d) that is
  the rectifier of (the sum over the 1536 features i of slab (0, r, i) · weights (0, i, d)) + bias (0, d).  The body spells
  the fourteen layers in several ways — some cut in two where the printed function is cut — and all of them unfold to
  the one spelling below.  The last layer multiplies the [256, 1792] scratch into the [1792, 128] weights, adds the
  bias vector to every row and rectifies.
-/
import proofs.«140699_j36077725287020_2_alg».proof.Proof.Gen.KernelIdeal.Skeleton
import proofs.«140699_j36077725287020_2_alg».proof.Proof.LibMatmulRows
import proofs.«140699_j36077725287020_2_alg».proof.Proof.Spec
import Idealize.ShloMosaic.Lib.Pipeline.Value
import Idealize.ShloMosaic.Lib.ValueLayout

noncomputable section

namespace Cert.KernelIdeal.Bridge

open Cert.KernelIdeal Cert.KernelIdeal.Gen Idealize.ShloMosaic Idealize.ShloMosaic.ValueIdx

/-- The slope of the leaky rectifier, as the body writes it. -/
abbrev slope : Ideal .f32 := Scalar.ofBits (F := Ideal) .f32 0x3C23D70A#32

/-- A layer before the rectifier: slab times weights, plus the bias row. -/
def pre (a : FVec Ideal S1x256x1536 .bf16) (w : FVec Ideal S1x1536x128 .bf16) (bb : FVec Ideal S1x128 .f32) :
    FVec Ideal S256x128 .f32 :=
  addf
    (matmul dot_S256x1536_S1536x128_S256x128_1_0_0_1_n_n none
      (shapeCast S256x1536 a shapeCasts_S1x256x1536_S256x1536) (shapeCast S1536x128 w shapeCasts_S1x1536x128_S1536x128)
      (constant S256x128 .f32 0x00000000#32))
    (broadcastTo S256x128 (shapeCast S1x128 (shapeCast S128 bb shapeCasts_S1x128_S128) shapeCasts_S128_S1x128)
      broadcasts_S1x128_S256x128)

/-- The leaky rectifier as the body spells it. -/
def act (x : FVec Ideal S256x128 .f32) (c : Ideal .f32) : FVec Ideal S256x128 .f32 :=
  select (cmpf .oge x (broadcast S256x128 (Scalar.ofBits (F := Ideal) .f32 0x00000000#32))) x (mulf (broadcast S256x128 c) x)

/-- The narrowing to the scratch's format and the cast to the same shape. -/
def pack (x : FVec Ideal S256x128 .f32) : FVec Ideal S256x128 .bf16 :=
  shapeCast S256x128 (truncf .bf16 x bitsLt_bf16_f32) shapeCasts_S256x128_S256x128

theorem pre_apply (a : FVec Ideal S1x256x1536 .bf16) (w : FVec Ideal S1x1536x128 .bf16) (bb : FVec Ideal S1x128 .f32)
    (r : Fin 256) (d : Fin 128) :
    pre a w bb (ix2 r d)
      = (∑ i : Fin 1536, a (ix3 (0 : Fin 1) r i) * w (ix3 (0 : Fin 1) i d)) + bb (ix2 (0 : Fin 1) d) := by
  unfold pre
  rw [addf_apply]
  refine congrArg₂ (· + ·) ?_ ?_
  · refine (Cert.MatmulRows.matmul_zero_ix2 _ rfl rfl rfl rfl rfl rfl none _ _ r d).trans ?_
    refine Finset.sum_congr rfl fun i _ => ?_
    exact congrArg₂ (· * ·) (shapeCast_1ab_ab_apply a _ r i) (shapeCast_1ab_ab_apply w _ i d)
  · rw [shapeCast_shapeCast]
    exact broadcastTo_1b_ab_apply bb _ r d

theorem act_apply (x : FVec Ideal S256x128 .f32) (i : S256x128.Idx) : act x slope i = Cert.Spec.lrelu (x i) := rfl

theorem pack_eq (x : FVec Ideal S256x128 .f32) : pack x = x := shapeCast_self _ _

/-- One edge layer at (r, d). -/
theorem edge_apply (a : FVec Ideal S1x256x1536 .bf16) (w : FVec Ideal S1x1536x128 .bf16) (bb : FVec Ideal S1x128 .f32)
    (r : Fin 256) (d : Fin 128) :
    pack (act (pre a w bb) slope) (ix2 r d)
      = Cert.Spec.lrelu ((∑ i : Fin 1536, a (ix3 (0 : Fin 1) r i) * w (ix3 (0 : Fin 1) i d)) + bb (ix2 (0 : Fin 1) d)) := by
  rw [pack_eq, act_apply, pre_apply]

/-! ## The body's fourteen spellings of an edge layer -/

section Spellings
variable (a : FVec Ideal S1x256x1536 .bf16) (w : FVec Ideal S1x1536x128 .bf16) (bb : FVec Ideal S1x128 .f32)

theorem pay2_eq : k0_pay2 (F := Ideal) a w bb = pack (act (pre a w bb) slope) := rfl
theorem pay4_eq : k0_pay4 (F := Ideal) (k0_pay3 a w bb) = pack (act (pre a w bb) slope) := rfl
theorem pay5_eq : k0_pay5 (F := Ideal) a w bb = pack (act (pre a w bb) slope) := rfl
theorem pay7_eq : k0_pay7 (F := Ideal) (k0_pay6 a w bb) slope = pack (act (pre a w bb) slope) := rfl
theorem pay8_eq : k0_pay8 (F := Ideal) a w bb = pack (act (pre a w bb) slope) := rfl
theorem pay10_eq : k0_pay10 (F := Ideal) (k0_pay9 a w) bb = pack (act (pre a w bb) slope) := rfl
theorem pay11_eq : k0_pay11 (F := Ideal) a w bb = pack (act (pre a w bb) slope) := rfl
theorem pay13_eq : k0_pay13 (F := Ideal) (k0_pay12 a) w bb = pack (act (pre a w bb) slope) := rfl
theorem pay14_eq : k0_pay14 (F := Ideal) a w bb = pack (act (pre a w bb) slope) := rfl
theorem pay15_eq : k0_pay15 (F := Ideal) a w bb = pack (act (pre a w bb) slope) := rfl
theorem pay17_eq : k0_pay17 (F := Ideal) (k0_pay16 a w bb) = pack (act (pre a w bb) slope) := rfl
theorem pay18_eq : k0_pay18 (F := Ideal) a w bb = pack (act (pre a w bb) slope) := rfl
theorem pay21_eq : k0_pay21 (F := Ideal) (k0_pay19 a w bb) slope (k0_pay20 (F := Ideal) a w bb) = pack (act (pre a w bb) slope) := rfl
theorem pay22_eq : k0_pay22 (F := Ideal) a w bb = pack (act (pre a w bb) slope) := rfl

end Spellings

/-! ## The last layer -/

/-- The last layer at (r, k): the scratch's row r times the weights' column k, plus the bias, rectified. -/
theorem last_apply (S : FVec Ideal S256x1792 .bf16) (w : FVec Ideal S1792x128 .bf16) (bh : FVec Ideal S128 .f32)
    (r : Fin 256) (k : Fin 128) :
    k0_pay1 (F := Ideal) (k0_pay23 S w bh) slope k0_pay24 (ix2 r k)
      = Cert.Spec.lrelu ((∑ j : Fin 1792, S (ix2 r j) * w (ix2 j k)) + bh (ix1 k)) := by
  show Cert.Spec.lrelu (k0_pay23 (F := Ideal) S w bh (ix2 r k)) = _
  refine congrArg Cert.Spec.lrelu ?_
  unfold k0_pay23
  rw [addf_apply, shapeCast_self]
  refine congrArg₂ (· + ·) ?_ ?_
  · exact Cert.MatmulRows.matmul_zero_ix2 _ rfl rfl rfl rfl rfl rfl none _ _ r k
  · exact (broadcastTo_1b_ab_apply _ _ r k).trans (shapeCast_a_1a_apply bh _ 0 k)

end Cert.KernelIdeal.Bridge

end
-- ==== Proof.KernelBlock.lean ====
/-
  What one grid point leaves in its output block.

  The body fills the [256, 1792] scratch by fourteen stores, edge type e writing columns 128 · e to 128 · e + 127, and then
  loads the scratch whole.  The fourteen rectangles tile the scratch, and each store's payload is the restriction to its
  rectangle of ONE function of the scratch index: at (r, j) the output of edge type j / 128 at position j mod 128 for the
  block's row r.  So the load reads that function, and the block the point writes back is, at (r, k), the specification
  applied to the point's blocks of the five operands.
-/
import proofs.«140699_j36077725287020_2_alg».proof.Proof.Gen.KernelIdeal.Frame
import proofs.«140699_j36077725287020_2_alg».proof.Proof.KernelEdge

set_option maxRecDepth 16384

noncomputable section

namespace Cert.KernelIdeal.Bridge

open Cert.KernelIdeal Cert.KernelIdeal.Gen Idealize.ShloMosaic Idealize.ShloMosaic.ValueIdx Idealize.ShloMosaic.Tactic
open Idealize.SL Idealize.SL.Sem

/-- The scratch after the fourteen stores, as one function of its index. -/
def scratchOf (x0 : FVec Ideal S14x256x1536 .bf16) (x1 : FVec Ideal S14x1536x128 .bf16) (x2 : FVec Ideal S14x128 .f32) : S256x1792.Idx → Ideal .bf16 :=
  fun y => Cert.Spec.hid x0 x1 x2 (Cert.Spec.featE (y 1)) (y 0) (Cert.Spec.featD (y 1))

theorem hz2 : (![0, 0] : Fin 2 → Nat) = fun _ => 0 := by
  funext a; match a with | ⟨0, _⟩ => rfl | ⟨1, _⟩ => rfl

theorem hz1 : (![0] : Fin 1 → Nat) = fun _ => 0 := by
  funext a; match a with | ⟨0, _⟩ => rfl

/-- A slab of the gathered rows' block, read through the body's load. -/
theorem slab_rows (arg1 : Memref sig .tc .vmem S14x256x1536 .bf16) (harg1 : arg1.IsWhole) (x0 : FVec Ideal S14x256x1536 .bf16)
    (o : Nat) (ho : o < 14) (inb : ∀ a, (![o, 0, 0] : Fin 3 → Nat) a + S1x256x1536.size a ≤ S14x256x1536.size a)
    (r : Fin 256) (i : Fin 1536) :
    View.readAt (Elt Ideal) arg1.view (Rect.unit (s := S14x256x1536) ![o, 0, 0] S1x256x1536.size inb).toLoadRect (harg1.unread x0)
        (ix3 (0 : Fin 1) r i) = x0 (ix3 ⟨o, ho⟩ r i) := by
  rw [View.readAt_eq_ld, harg1.read_unread]
  refine congrArg x0 (funext fun a => Fin.ext ?_)
  match a with
  | ⟨0, _⟩ => show o + 1 * 0 = o; omega
  | ⟨1, _⟩ => show 0 + 1 * r.val = r.val; omega
  | ⟨2, _⟩ => show 0 + 1 * i.val = i.val; omega

/-- A slab of the edge weights. -/
theorem slab_weights (arg2 : Memref sig .tc .vmem S14x1536x128 .bf16) (harg2 : arg2.IsWhole) (x1 : FVec Ideal S14x1536x128 .bf16)
    (o : Nat) (ho : o < 14) (inb : ∀ a, (![o, 0, 0] : Fin 3 → Nat) a + S1x1536x128.size a ≤ S14x1536x128.size a)
    (i : Fin 1536) (d : Fin 128) :
    View.readAt (Elt Ideal) arg2.view (Rect.unit (s := S14x1536x128) ![o, 0, 0] S1x1536x128.size inb).toLoadRect (harg2.unread x1)
        (ix3 (0 : Fin 1) i d) = x1 (ix3 ⟨o, ho⟩ i d) := by
  rw [View.readAt_eq_ld, harg2.read_unread]
  refine congrArg x1 (funext fun a => Fin.ext ?_)
  match a with
  | ⟨0, _⟩ => show o + 1 * 0 = o; omega
  | ⟨1, _⟩ => show 0 + 1 * i.val = i.val; omega
  | ⟨2, _⟩ => show 0 + 1 * d.val = d.val; omega

/-- A row of the edge biases. -/
theorem slab_bias (arg3 : Memref sig .tc .vmem S14x128 .f32) (harg3 : arg3.IsWhole) (x2 : FVec Ideal S14x128 .f32)
    (o : Nat) (ho : o < 14) (inb : ∀ a, (![o, 0] : Fin 2 → Nat) a + S1x128.size a ≤ S14x128.size a) (d : Fin 128) :
    View.readAt (Elt Ideal) arg3.view (Rect.unit (s := S14x128) ![o, 0] S1x128.size inb).toLoadRect (harg3.unread x2)
        (ix2 (0 : Fin 1) d) = x2 (ix2 ⟨o, ho⟩ d) := by
  rw [View.readAt_eq_ld, harg3.read_unread]
  refine congrArg x2 (funext fun a => Fin.ext ?_)
  match a with
  | ⟨0, _⟩ => show o + 1 * 0 = o; omega
  | ⟨1, _⟩ => show 0 + 1 * d.val = d.val; omega

/-- Edge type o's layer over its three slabs is the scratch function on its columns. -/
theorem edge_piece (arg1 : Memref sig .tc .vmem S14x256x1536 .bf16) (harg1 : arg1.IsWhole) (arg2 : Memref sig .tc .vmem S14x1536x128 .bf16) (harg2 : arg2.IsWhole) (arg3 : Memref sig .tc .vmem S14x128 .f32) (harg3 : arg3.IsWhole)
    (x0 : FVec Ideal S14x256x1536 .bf16) (x1 : FVec Ideal S14x1536x128 .bf16) (x2 : FVec Ideal S14x128 .f32) (o : Nat) (ho : o < 14)
    (inb1 : ∀ a, (![o, 0, 0] : Fin 3 → Nat) a + S1x256x1536.size a ≤ S14x256x1536.size a)
    (inb2 : ∀ a, (![o, 0, 0] : Fin 3 → Nat) a + S1x1536x128.size a ≤ S14x1536x128.size a)
    (inb3 : ∀ a, (![o, 0] : Fin 2 → Nat) a + S1x128.size a ≤ S14x128.size a)
    (r : Fin 256) (d : Fin 128) (q : Fin 1792) (hq : q.val = 128 * o + d.val) :
    pack (act (pre
        (View.readAt (Elt Ideal) arg1.view (Rect.unit (s := S14x256x1536) ![o, 0, 0] S1x256x1536.size inb1).toLoadRect (harg1.unread x0))
        (View.readAt (Elt Ideal) arg2.view (Rect.unit (s := S14x1536x128) ![o, 0, 0] S1x1536x128.size inb2).toLoadRect (harg2.unread x1))
        (View.readAt (Elt Ideal) arg3.view (Rect.unit (s := S14x128) ![o, 0] S1x128.size inb3).toLoadRect (harg3.unread x2))) slope)
      (ix2 r d) = scratchOf x0 x1 x2 (ix2 r q) := by
  refine (edge_apply _ _ _ r d).trans ?_
  have hE : Cert.Spec.featE q = ⟨o, ho⟩ := Fin.ext (by show q.val / 128 = o; have := d.isLt; omega)
  have hD : Cert.Spec.featD q = d := Fin.ext (by show q.val % 128 = d.val; have := d.isLt; omega)
  show _ = Cert.Spec.hid x0 x1 x2 (Cert.Spec.featE q) r (Cert.Spec.featD q)
  rw [hE, hD]
  unfold Cert.Spec.hid
  refine congrArg Cert.Spec.lrelu (congrArg₂ (· + ·) (Finset.sum_congr rfl fun i _ => congrArg₂ (· * ·) ?_ ?_) ?_)
  · exact slab_rows arg1 harg1 x0 o ho inb1 r i
  · exact slab_weights arg2 harg2 x1 o ho inb2 i d
  · exact slab_bias arg3 harg3 x2 o ho inb3 d

/-- A store of columns c to c + 127 whose payload is the function there agrees with the function on its rectangle. -/
theorem piece_ok (G : S256x1792.Idx → Ideal .bf16) (c : Nat) (hc : c + 128 ≤ 1792)
    (inb : ∀ a, (![0, c] : Fin 2 → Nat) a + S256x128.size a ≤ S256x1792.size a) (p : FVec Ideal S256x128 .bf16)
    (h : ∀ (r : Fin 256) (d : Fin 128), p (ix2 r d) = G (ix2 r ⟨c + d.val, by omega⟩)) :
    ∀ x : (Rect.unit (s := S256x1792) ![0, c] S256x128.size inb).shape.Idx,
      p x = G ((Rect.unit (s := S256x1792) ![0, c] S256x128.size inb).emb x) := by
  intro x
  obtain ⟨r, d, rfl⟩ : ∃ (r : Fin 256) (d : Fin 128), x = ix2 r d := ⟨x 0, x 1, eq_ix2 x⟩
  refine (h r d).trans (congrArg G (funext fun a => Fin.ext ?_))
  match a with
  | ⟨0, _⟩ => show r.val = 0 + 1 * r.val; omega
  | ⟨1, _⟩ => show c + d.val = c + 1 * d.val; omega

/-- The scratch loaded whole after fourteen column stores whose payloads are one function's columns reads that function. -/
theorem scratch_read (arg7 : Memref sig .tc .vmem S256x1792 .bf16) (G : S256x1792.Idx → Ideal .bf16)
    (p0 : FVec Ideal S256x128 .bf16) (p1 : FVec Ideal S256x128 .bf16) (p2 : FVec Ideal S256x128 .bf16) (p3 : FVec Ideal S256x128 .bf16) (p4 : FVec Ideal S256x128 .bf16) (p5 : FVec Ideal S256x128 .bf16) (p6 : FVec Ideal S256x128 .bf16) (p7 : FVec Ideal S256x128 .bf16) (p8 : FVec Ideal S256x128 .bf16) (p9 : FVec Ideal S256x128 .bf16) (p10 : FVec Ideal S256x128 .bf16) (p11 : FVec Ideal S256x128 .bf16) (p12 : FVec Ideal S256x128 .bf16) (p13 : FVec Ideal S256x128 .bf16)
    (i0 : ∀ a, (![0, 0] : Fin 2 → Nat) a + S256x128.size a ≤ S256x1792.size a)
    (i1 : ∀ a, (![0, 128] : Fin 2 → Nat) a + S256x128.size a ≤ S256x1792.size a)
    (i2 : ∀ a, (![0, 256] : Fin 2 → Nat) a + S256x128.size a ≤ S256x1792.size a)
    (i3 : ∀ a, (![0, 384] : Fin 2 → Nat) a + S256x128.size a ≤ S256x1792.size a)
    (i4 : ∀ a, (![0, 512] : Fin 2 → Nat) a + S256x128.size a ≤ S256x1792.size a)
    (i5 : ∀ a, (![0, 640] : Fin 2 → Nat) a + S256x128.size a ≤ S256x1792.size a)
    (i6 : ∀ a, (![0, 768] : Fin 2 → Nat) a + S256x128.size a ≤ S256x1792.size a)
    (i7 : ∀ a, (![0, 896] : Fin 2 → Nat) a + S256x128.size a ≤ S256x1792.size a)
    (i8 : ∀ a, (![0, 1024] : Fin 2 → Nat) a + S256x128.size a ≤ S256x1792.size a)
    (i9 : ∀ a, (![0, 1152] : Fin 2 → Nat) a + S256x128.size a ≤ S256x1792.size a)
    (i10 : ∀ a, (![0, 1280] : Fin 2 → Nat) a + S256x128.size a ≤ S256x1792.size a)
    (i11 : ∀ a, (![0, 1408] : Fin 2 → Nat) a + S256x128.size a ≤ S256x1792.size a)
    (i12 : ∀ a, (![0, 1536] : Fin 2 → Nat) a + S256x128.size a ≤ S256x1792.size a)
    (i13 : ∀ a, (![0, 1664] : Fin 2 → Nat) a + S256x128.size a ≤ S256x1792.size a)
    (iW : ∀ a, (![0, 0] : Fin 2 → Nat) a + S256x1792.size a ≤ S256x1792.size a)
    (h0 : ∀ (r : Fin 256) (d : Fin 128), p0 (ix2 r d) = G (ix2 r ⟨0 + d.val, by omega⟩))
    (h1 : ∀ (r : Fin 256) (d : Fin 128), p1 (ix2 r d) = G (ix2 r ⟨128 + d.val, by omega⟩))
    (h2 : ∀ (r : Fin 256) (d : Fin 128), p2 (ix2 r d) = G (ix2 r ⟨256 + d.val, by omega⟩))
    (h3 : ∀ (r : Fin 256) (d : Fin 128), p3 (ix2 r d) = G (ix2 r ⟨384 + d.val, by omega⟩))
    (h4 : ∀ (r : Fin 256) (d : Fin 128), p4 (ix2 r d) = G (ix2 r ⟨512 + d.val, by omega⟩))
    (h5 : ∀ (r : Fin 256) (d : Fin 128), p5 (ix2 r d) = G (ix2 r ⟨640 + d.val, by omega⟩))
    (h6 : ∀ (r : Fin 256) (d : Fin 128), p6 (ix2 r d) = G (ix2 r ⟨768 + d.val, by omega⟩))
    (h7 : ∀ (r : Fin 256) (d : Fin 128), p7 (ix2 r d) = G (ix2 r ⟨896 + d.val, by omega⟩))
    (h8 : ∀ (r : Fin 256) (d : Fin 128), p8 (ix2 r d) = G (ix2 r ⟨1024 + d.val, by omega⟩))
    (h9 : ∀ (r : Fin 256) (d : Fin 128), p9 (ix2 r d) = G (ix2 r ⟨1152 + d.val, by omega⟩))
    (h10 : ∀ (r : Fin 256) (d : Fin 128), p10 (ix2 r d) = G (ix2 r ⟨1280 + d.val, by omega⟩))
    (h11 : ∀ (r : Fin 256) (d : Fin 128), p11 (ix2 r d) = G (ix2 r ⟨1408 + d.val, by omega⟩))
    (h12 : ∀ (r : Fin 256) (d : Fin 128), p12 (ix2 r d) = G (ix2 r ⟨1536 + d.val, by omega⟩))
    (h13 : ∀ (r : Fin 256) (d : Fin 128), p13 (ix2 r d) = G (ix2 r ⟨1664 + d.val, by omega⟩)) :
    (arg7.view.readCov (Val := Elt Ideal)
      [⟨Rect.unit (s := S256x1792) ![0, 1664] S256x128.size i13, p13⟩,
      ⟨Rect.unit (s := S256x1792) ![0, 1536] S256x128.size i12, p12⟩,
      ⟨Rect.unit (s := S256x1792) ![0, 1408] S256x128.size i11, p11⟩,
      ⟨Rect.unit (s := S256x1792) ![0, 1280] S256x128.size i10, p10⟩,
      ⟨Rect.unit (s := S256x1792) ![0, 1152] S256x128.size i9, p9⟩,
      ⟨Rect.unit (s := S256x1792) ![0, 1024] S256x128.size i8, p8⟩,
      ⟨Rect.unit (s := S256x1792) ![0, 896] S256x128.size i7, p7⟩,
      ⟨Rect.unit (s := S256x1792) ![0, 768] S256x128.size i6, p6⟩,
      ⟨Rect.unit (s := S256x1792) ![0, 640] S256x128.size i5, p5⟩,
      ⟨Rect.unit (s := S256x1792) ![0, 512] S256x128.size i4, p4⟩,
      ⟨Rect.unit (s := S256x1792) ![0, 384] S256x128.size i3, p3⟩,
      ⟨Rect.unit (s := S256x1792) ![0, 256] S256x128.size i2, p2⟩,
      ⟨Rect.unit (s := S256x1792) ![0, 128] S256x128.size i1, p1⟩,
      ⟨Rect.unit (s := S256x1792) ![0, 0] S256x128.size i0, p0⟩]
      (Rect.unit (s := S256x1792) ![0, 0] S256x1792.size iW).toLoadRect : S256x1792.Idx → Ideal .bf16) = G := by
  have hcov := View.cover_of_tiledL
    ([⟨Rect.unit (s := S256x1792) ![0, 1664] S256x128.size i13, p13⟩,
      ⟨Rect.unit (s := S256x1792) ![0, 1536] S256x128.size i12, p12⟩,
      ⟨Rect.unit (s := S256x1792) ![0, 1408] S256x128.size i11, p11⟩,
      ⟨Rect.unit (s := S256x1792) ![0, 1280] S256x128.size i10, p10⟩,
      ⟨Rect.unit (s := S256x1792) ![0, 1152] S256x128.size i9, p9⟩,
      ⟨Rect.unit (s := S256x1792) ![0, 1024] S256x128.size i8, p8⟩,
      ⟨Rect.unit (s := S256x1792) ![0, 896] S256x128.size i7, p7⟩,
      ⟨Rect.unit (s := S256x1792) ![0, 768] S256x128.size i6, p6⟩,
      ⟨Rect.unit (s := S256x1792) ![0, 640] S256x128.size i5, p5⟩,
      ⟨Rect.unit (s := S256x1792) ![0, 512] S256x128.size i4, p4⟩,
      ⟨Rect.unit (s := S256x1792) ![0, 384] S256x128.size i3, p3⟩,
      ⟨Rect.unit (s := S256x1792) ![0, 256] S256x128.size i2, p2⟩,
      ⟨Rect.unit (s := S256x1792) ![0, 128] S256x128.size i1, p1⟩,
      ⟨Rect.unit (s := S256x1792) ![0, 0] S256x128.size i0, p0⟩] : List (View.Piece (Elt Ideal) S256x1792 .bf16)) S256x128.size (by sl_kernel_rfl)
  rw [View.readCov_eq_canon_ld _ _ _ hcov, View.ld_unit_zero hz2]
  funext y
  exact View.canon_apply_of_pieces G _
    (List.forall_mem_cons.2 ⟨piece_ok G 1664 (by norm_num) i13 p13 h13, List.forall_mem_cons.2 ⟨piece_ok G 1536 (by norm_num) i12 p12 h12, List.forall_mem_cons.2 ⟨piece_ok G 1408 (by norm_num) i11 p11 h11, List.forall_mem_cons.2 ⟨piece_ok G 1280 (by norm_num) i10 p10 h10, List.forall_mem_cons.2 ⟨piece_ok G 1152 (by norm_num) i9 p9 h9, List.forall_mem_cons.2 ⟨piece_ok G 1024 (by norm_num) i8 p8 h8, List.forall_mem_cons.2 ⟨piece_ok G 896 (by norm_num) i7 p7 h7, List.forall_mem_cons.2 ⟨piece_ok G 768 (by norm_num) i6 p6 h6, List.forall_mem_cons.2 ⟨piece_ok G 640 (by norm_num) i5 p5 h5, List.forall_mem_cons.2 ⟨piece_ok G 512 (by norm_num) i4 p4 h4, List.forall_mem_cons.2 ⟨piece_ok G 384 (by norm_num) i3 p3 h3, List.forall_mem_cons.2 ⟨piece_ok G 256 (by norm_num) i2 p2 h2, List.forall_mem_cons.2 ⟨piece_ok G 128 (by norm_num) i1 p1 h1, List.forall_mem_cons.2 ⟨piece_ok G 0 (by norm_num) i0 p0 h0, fun _ h => absurd h List.not_mem_nil⟩⟩⟩⟩⟩⟩⟩⟩⟩⟩⟩⟩⟩⟩) y (hcov y)

/-- THE OUTPUT BLOCK of one grid point, at (r, k): the specification applied to the point's blocks of the operands. -/
theorem block_out (c : Dev nD) (i : grid0.Coords) (arg1 : Memref sig .tc .vmem S14x256x1536 .bf16) (harg1 : arg1.IsWhole) (arg2 : Memref sig .tc .vmem S14x1536x128 .bf16) (harg2 : arg2.IsWhole) (arg3 : Memref sig .tc .vmem S14x128 .f32) (harg3 : arg3.IsWhole) (arg4 : Memref sig .tc .vmem S1792x128 .bf16) (harg4 : arg4.IsWhole) (arg5 : Memref sig .tc .vmem S128 .f32) (harg5 : arg5.IsWhole) (arg6 : Memref sig .tc .vmem S256x128 .f32) (harg6 : arg6.IsWhole) (arg7 : Memref sig .tc .vmem S256x1792 .bf16) (harg7 : arg7.IsWhole)
    (x0 : FVec Ideal S14x256x1536 .bf16) (x1 : FVec Ideal S14x1536x128 .bf16) (x2 : FVec Ideal S14x128 .f32) (x3 : FVec Ideal S1792x128 .bf16) (x4 : FVec Ideal S128 .f32) (r : Fin 256) (k : Fin 128) :
    out0_A_5 (F := Ideal) c i arg1 harg1 arg2 harg2 arg3 harg3 arg4 harg4 arg5 harg5 arg6 harg6 arg7 harg7 x0 x1 x2 x3 x4 (ix2 r k) = Cert.Spec.out x0 x1 x2 x3 x4 r k := by
  unfold out0_A_5
  rw [View.read_writes_eq_canon _ _ _ (cover0_A_5 (F := Ideal) c i arg1 harg1 arg2 harg2 arg3 harg3 arg4 harg4 arg5 harg5 arg6 harg6 arg7 harg7 x0 x1 x2 x3 x4)]
  unfold kernelRun0_A
  dsimp only
  sl_unfold_run_names
  rw [View.canon_unit_zero hz2]
  refine (last_apply _ _ _ r k).trans ?_
  unfold Cert.Spec.out
  refine congrArg Cert.Spec.lrelu (congrArg₂ (· + ·) (Finset.sum_congr rfl fun j _ => congrArg₂ (· * ·) ?_ ?_) ?_)
  · refine (congrFun (scratch_read arg7 (scratchOf x0 x1 x2) _ _ _ _ _ _ _ _ _ _ _ _ _ _ _ _ _ _ _ _ _ _ _ _ _ _ _ _ _
      (fun r d => (congrFun (pay2_eq _ _ _) _).trans (edge_piece arg1 harg1 arg2 harg2 arg3 harg3 x0 x1 x2 0 (by norm_num) _ _ _ r d _ rfl))
      (fun r d => (congrFun (pay4_eq _ _ _) _).trans (edge_piece arg1 harg1 arg2 harg2 arg3 harg3 x0 x1 x2 1 (by norm_num) _ _ _ r d _ rfl))
      (fun r d => (congrFun (pay5_eq _ _ _) _).trans (edge_piece arg1 harg1 arg2 harg2 arg3 harg3 x0 x1 x2 2 (by norm_num) _ _ _ r d _ rfl))
      (fun r d => (congrFun (pay7_eq _ _ _) _).trans (edge_piece arg1 harg1 arg2 harg2 arg3 harg3 x0 x1 x2 3 (by norm_num) _ _ _ r d _ rfl))
      (fun r d => (congrFun (pay8_eq _ _ _) _).trans (edge_piece arg1 harg1 arg2 harg2 arg3 harg3 x0 x1 x2 4 (by norm_num) _ _ _ r d _ rfl))
      (fun r d => (congrFun (pay10_eq _ _ _) _).trans (edge_piece arg1 harg1 arg2 harg2 arg3 harg3 x0 x1 x2 5 (by norm_num) _ _ _ r d _ rfl))
      (fun r d => (congrFun (pay11_eq _ _ _) _).trans (edge_piece arg1 harg1 arg2 harg2 arg3 harg3 x0 x1 x2 6 (by norm_num) _ _ _ r d _ rfl))
      (fun r d => (congrFun (pay13_eq _ _ _) _).trans (edge_piece arg1 harg1 arg2 harg2 arg3 harg3 x0 x1 x2 7 (by norm_num) _ _ _ r d _ rfl))
      (fun r d => (congrFun (pay14_eq _ _ _) _).trans (edge_piece arg1 harg1 arg2 harg2 arg3 harg3 x0 x1 x2 8 (by norm_num) _ _ _ r d _ rfl))
      (fun r d => (congrFun (pay15_eq _ _ _) _).trans (edge_piece arg1 harg1 arg2 harg2 arg3 harg3 x0 x1 x2 9 (by norm_num) _ _ _ r d _ rfl))
      (fun r d => (congrFun (pay17_eq _ _ _) _).trans (edge_piece arg1 harg1 arg2 harg2 arg3 harg3 x0 x1 x2 10 (by norm_num) _ _ _ r d _ rfl))
      (fun r d => (congrFun (pay18_eq _ _ _) _).trans (edge_piece arg1 harg1 arg2 harg2 arg3 harg3 x0 x1 x2 11 (by norm_num) _ _ _ r d _ rfl))
      (fun r d => (congrFun (pay21_eq _ _ _) _).trans (edge_piece arg1 harg1 arg2 harg2 arg3 harg3 x0 x1 x2 12 (by norm_num) _ _ _ r d _ rfl))
      (fun r d => (congrFun (pay22_eq _ _ _) _).trans (edge_piece arg1 harg1 arg2 harg2 arg3 harg3 x0 x1 x2 13 (by norm_num) _ _ _ r d _ rfl))) (ix2 r j)).trans ?_
    rfl
  · rw [View.readAt_eq_ld, harg4.read_unread, View.ld_unit_zero hz2]
  · rw [View.readAt_eq_ld, harg5.read_unread, View.ld_unit_zero hz1]

end Cert.KernelIdeal.Bridge

end
-- ==== Proof.KernelFinal.lean ====
/-
  The kernel's result array, entry by entry.

  Before the region the host gathers the rows (after making negative indices count from the end) and narrows three
  arrays' format, which changes nothing on the extended reals.  Grid point t stages rows 256 · t to 256 · t + 255 of the
  gathered array under every edge type, and the other four operands whole; it writes back rows 256 · t to 256 · t + 255 of
  the result.  The block it writes is the specification applied to its blocks, and the specification reads the gathered
  array in one row only, so the block is the restriction of ONE function of the result's index: the specification applied
  to the whole arrays.  The thirty-two blocks cover the result, so the array after the run is that function.
-/
import proofs.«140699_j36077725287020_2_alg».proof.Proof.Gen.KernelIdeal.Value
import proofs.«140699_j36077725287020_2_alg».proof.Proof.KernelBlock
import Idealize.ShloMosaic.Lib.StableHlo.Run

set_option maxRecDepth 16384

noncomputable section

namespace Cert.KernelIdeal.Bridge

open Cert.KernelIdeal Cert.KernelIdeal.Gen Cert.KernelIdeal.Value Idealize.ShloMosaic Idealize.ShloMosaic.TcCoe
open Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The host operations before the region -/

/-- The row indices as the gather reads them: a negative index counted from the end, then viewed as a column. -/
def rowsOf (g : IVec S8192 32) : IVec S8192x1 32 :=
  broadcastInDim S8192x1 ![0] bcast_S8192_S8192x1_0
    (select (cmpi .slt g (broadcastInDim S8192 ![] bcast_S_S8192 (constantI S_ 32 0#32)))
      (addi g (broadcastInDim S8192 ![] bcast_S_S8192 (constantI S_ 32 10000#32))) g)

/-- The gathered rows, one per batch entry and edge type. -/
def gathered (x : FVec Ideal S14x10000x1536 .f32) (g : IVec S8192 32) : FVec Ideal S14x8192x1536 .f32 :=
  Host.gather gather_S14x10000x1536_S8192x1_S14x8192x1536_02_1_n_n_1_1_1411536 x (rowsOf g)

attribute [local irreducible] Host.gather in
/-- The region finds the gathered rows (narrowed in format) in its first operand, -/
theorem V_rows (c : Dev nD) :
    (V m c main_v7 : S14x8192x1536.Idx → Ideal .bf16) = gathered (m ((c : Thread nD τ).loc main_arg0)) (m ((c : Thread nD τ).loc main_arg5)) := by
  dsimp only [Gen.V, Gen.hostOps0]; after_results; rfl

/-- the edge weights in its second, -/
theorem V_edge_w (c : Dev nD) : (V m c main_v8 : S14x1536x128.Idx → Ideal .bf16) = (m ((c : Thread nD τ).loc main_arg1)) := by
  dsimp only [Gen.V, Gen.hostOps0]; after_results; rfl

/-- and the last layer's weights in its fourth. -/
theorem V_last_w (c : Dev nD) : (V m c main_v9 : S1792x128.Idx → Ideal .bf16) = (m ((c : Thread nD τ).loc main_arg3)) := by
  dsimp only [Gen.V, Gen.hostOps0]; after_results; rfl

/-! ## What the result array ends holding -/

/-- The specification applied to the arrays the region finds. -/
def resultOf (c : Dev nD) : S8192x128.Idx → Ideal .f32 := fun i =>
  Cert.Spec.out (V m c main_v7) (V m c main_v8) (V m c main_arg2) (V m c main_v9) (V m c main_arg4) (i 0) (i 1)

/-- The printed index maps, decided over the thirty-two points: the gathered rows' block moves with the result's along
    the batch axis, every other block index is zero. -/
theorem idx_facts : ∀ t : Fin cfg0.N,
    win0_0.index t (0 : Fin 3) = 0 ∧ win0_0.index t (1 : Fin 3) = win0_5.index t (0 : Fin 2) ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) ≤ 31 :=
  (by decide +kernel : ∀ t : Fin grid0.N, _)

/-- Every block of rows of the result is some point's. -/
theorem idx_onto : ∀ q : Fin 32, ∃ t : Fin cfg0.N, win0_5.index t = ![q.val, 0] :=
  (by decide +kernel : ∀ q : Fin 32, ∃ t : Fin grid0.N, win0_5.index t = ![q.val, 0])

/-- The operands staged whole are, at every point, the arrays themselves. -/
theorem blk_edge_w (c : Dev nD) (t : Fin cfg0.N) : iblk m c 1 t = V m c main_v8 := by
  obtain ⟨-, -, -, e0, e1, e2, -⟩ := idx_facts t
  funext y
  show V m c main_v8 (((cfg0.win 1).blk t).view.emb y) = V m c main_v8 y
  refine congrArg (V m c main_v8) (funext fun a => Fin.ext ?_)
  match a with
  | ⟨0, _⟩ => show win0_1.index t (0 : Fin 3) * 14 + 1 * (y 0).val = (y 0).val; omega
  | ⟨1, _⟩ => show win0_1.index t (1 : Fin 3) * 1536 + 1 * (y 1).val = (y 1).val; omega
  | ⟨2, _⟩ => show win0_1.index t (2 : Fin 3) * 128 + 1 * (y 2).val = (y 2).val; omega

theorem blk_edge_b (c : Dev nD) (t : Fin cfg0.N) : iblk m c 2 t = V m c main_arg2 := by
  obtain ⟨-, -, -, -, -, -, e0, e1, -⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 14 + 1 * (y 0).val = (y 0).val; omega
  | ⟨1, _⟩ => show win0_2.index t (1 : Fin 2) * 128 + 1 * (y 1).val = (y 1).val; omega

theorem blk_last_w (c : Dev nD) (t : Fin cfg0.N) : iblk m c 3 t = V m c main_v9 := by
  obtain ⟨-, -, -, -, -, -, -, -, e0, e1, -⟩ := idx_facts t
  funext y
  show V m c main_v9 (((cfg0.win 3).blk t).view.emb y) = V m c main_v9 y
  refine congrArg (V m c main_v9) (funext fun a => Fin.ext ?_)
  match a with
  | ⟨0, _⟩ => show win0_3.index t (0 : Fin 2) * 1792 + 1 * (y 0).val = (y 0).val; omega
  | ⟨1, _⟩ => show win0_3.index t (1 : Fin 2) * 128 + 1 * (y 1).val = (y 1).val; omega

theorem blk_last_b (c : Dev nD) (t : Fin cfg0.N) : iblk m c 4 t = V m c main_arg4 := by
  obtain ⟨-, -, -, -, -, -, -, -, -, -, e0, -⟩ := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 1) * 128 + 1 * (y 0).val = (y 0).val; omega

/-- The block point t writes back, at (r, k), in terms of the arrays the region finds and the point's block of rows. -/
theorem block_at (c : Dev nD) (t : Fin cfg0.N) (r : Fin 256) (k : Fin 128) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (ix2 r k)
      = Cert.Spec.out (iblk m c 0 t) (V m c main_v8) (V m c main_arg2) (V m c main_v9) (V m c main_arg4) r k := by
  refine (block_out c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) r k).trans ?_
  rw [blk_edge_w, blk_edge_b, blk_last_w, blk_last_b]

/-- Row r of point t's block of gathered rows is row 256 · t + r of the gathered array. -/
theorem rows_at (c : Dev nD) (t : Fin cfg0.N) (r : Fin 256) (n : Fin 8192)
    (hn : n.val = win0_5.index t (0 : Fin 2) * 256 + r.val) (e : Fin 14) (i : Fin 1536) :
    iblk m c 0 t (ix3 e r i) = V m c main_v7 (ix3 e n i) := by
  obtain ⟨f0, f1, f2, -⟩ := idx_facts t
  show V m c main_v7 (((cfg0.win 0).blk t).view.emb (ix3 e r i)) = V m c main_v7 (ix3 e n i)
  refine congrArg (V m c main_v7) (funext fun a => Fin.ext ?_)
  match a with
  | ⟨0, _⟩ => show win0_0.index t (0 : Fin 3) * 14 + 1 * e.val = e.val; omega
  | ⟨1, _⟩ => show win0_0.index t (1 : Fin 3) * 256 + 1 * r.val = n.val; omega
  | ⟨2, _⟩ => show win0_0.index t (2 : Fin 3) * 1536 + 1 * i.val = i.val; omega

/-- The specification in row n, column k, from any array that agrees with the gathered one on that row. -/
theorem out_of_rows {N N' : Nat} (G : (⟨3, ![14, N, 1536]⟩ : Shape).Idx → EReal) (G' : (⟨3, ![14, N', 1536]⟩ : Shape).Idx → EReal)
    (W : (⟨3, ![14, 1536, 128]⟩ : Shape).Idx → EReal) (b : (⟨2, ![14, 128]⟩ : Shape).Idx → EReal)
    (Wh : (⟨2, ![1792, 128]⟩ : Shape).Idx → EReal) (bh : (⟨1, ![128]⟩ : Shape).Idx → EReal) (n : Fin N) (n' : Fin N')
    (k k' : Fin 128) (hk : k = k') (h : ∀ (e : Fin 14) (i : Fin 1536), G (ix3 e n i) = G' (ix3 e n' i)) :
    Cert.Spec.out G W b Wh bh n k = Cert.Spec.out G' W b Wh bh n' k' := by
  subst hk
  exact Cert.Spec.out_rows G G' W b Wh bh n n' k h

set_option maxHeartbeats 1000000 in
/-- WHAT POINT t WRITES BACK is block t of the one function. -/
theorem flushed_eq (c : Dev nD) (t : Fin cfg0.N) :
    (dats m 0 c).flushed 5 t = ((cfg0.win 5).blk t).view.read (Elt Ideal) (resultOf m c) := by
  rw [flushed5_A]
  have hB := block_at m c t
  generalize out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) = X at hB ⊢
  obtain ⟨-, -, -, -, -, -, -, -, -, -, -, g1, g0⟩ := idx_facts t
  funext j
  have hj0 : (j 0).val < 256 := (j 0).isLt
  have hj1 : (j 1).val < 128 := (j 1).isLt
  show X ((cfg0.win 5).xinj (grid0.coords t) j) = resultOf m c (((cfg0.win 5).blk t).view.emb j)
  have e1 : (cfg0.win 5).xinj (grid0.coords t) j = ix2 (⟨(j 0).val, hj0⟩ : Fin 256) (⟨(j 1).val, hj1⟩ : Fin 128) :=
    funext fun a => by
      match a with
      | ⟨0, _⟩ => rfl
      | ⟨1, _⟩ => rfl
  rw [e1, hB]
  unfold resultOf
  refine out_of_rows _ _ _ _ _ _ _ _ _ _ (Fin.ext ?_) fun e i => rows_at m c t _ _ ?_ e i
  · show (j 1).val = win0_5.index t (1 : Fin 2) * 128 + 1 * (j 1).val
    omega
  · show win0_5.index t (0 : Fin 2) * 256 + 1 * (j 0).val = win0_5.index t (0 : Fin 2) * 256 + (j 0).val
    omega

/-- An index of the result is in point t's block iff each coordinate is in the block's range on its axis. -/
theorem mem_blk (t : Fin cfg0.N) (i : S8192x128.Idx) :
    i ∈ ((cfg0.win 5).blk t).view.set ↔ ∀ a : Fin 2, win0_5.index t a * S256x128.size a ≤ (i a).val ∧ (i a).val < win0_5.index t a * S256x128.size a + S256x128.size a := by
  show i ∈ ((View.whole main_v10).slice (win0_5.rect t)).set ↔ _
  rw [View.set_slice_whole, Rect.mem_set_unit]
  exact Iff.rfl

/-- The thirty-two blocks cover the result: row n is in the block of point n / 256. -/
theorem cover (i : S8192x128.Idx) : ∃ t : Fin cfg0.N, (cfg0.win 5).flush t = true ∧ i ∈ ((cfg0.win 5).blk t).view.set := by
  have hi0 : (i 0).val < 8192 := (i 0).isLt
  have hi1 : (i 1).val < 128 := (i 1).isLt
  obtain ⟨t, ht⟩ := idx_onto ⟨(i 0).val / 256, by omega⟩
  have q0 : win0_5.index t (0 : Fin 2) = (i 0).val / 256 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 128 ≤ (i 1).val ∧ (i 1).val < win0_5.index t (1 : Fin 2) * 128 + 128; omega

/-- THE RESULT ARRAY after the run. -/
theorem final (c : Dev nD) : (dats m 0 c).arrAt 5 cfg0.N = resultOf m c :=
  (dats m 0 c).arrAt_eq_of_cover 5 (resultOf m c) (fun t _ => flushed_eq m c t) (cover)

/-- The function in terms of the six arguments. -/
def kernelOut (x : FVec Ideal S14x10000x1536 .f32) (W : FVec Ideal S14x1536x128 .f32) (b : FVec Ideal S14x128 .f32)
    (Wh : FVec Ideal S1792x128 .f32) (bh : FVec Ideal S128 .f32) (g : IVec S8192 32) : S8192x128.Idx → Ideal .f32 :=
  fun i => Cert.Spec.out (gathered x g) W b Wh bh (i 0) (i 1)

theorem resultOf_eq (c : Dev nD) :
    resultOf m c = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold resultOf kernelOut
  rw [V_rows, V_edge_w, V_last_w, V_main_arg2, V_main_arg4]

/-- Every weakly fair execution of the kernel's program terminates with the result at that function of the arguments,
    the arguments unchanged. -/
theorem run : θ_run defs (onTc (τ := τ) (main (F := Ideal))) ⟨m, fun _ => 0, ρ⟩ fun r => ∀ c : Dev nD,
      r.2.mem ((c : Thread nD τ).loc main_v10)
        = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (resultOf_eq m c)), (h c).2⟩)
    (run_blocks m ρ)

end Cert.KernelIdeal.Bridge

end
-- ==== Proof.RefRun.lean ====
/-
  The reference's run, read back.

  The reference is a straight line of host operations once the two calls of the leaky rectifier (and, inside each, the
  call of the choice between two arrays) are replaced by the called functions' own operations over the buffers the
  calls name.  Every weakly fair execution of that line terminates; each operation's result is its function of its
  operands' contents, so the result buffer ends at one composed function of the six argument arrays, which are
  themselves left unchanged.
-/
import proofs.«140699_j36077725287020_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's host operations in order, each call replaced by the operations of the function it calls: the
    row indices made non-negative, the rows gathered, the fourteen products with their bias rows, the leaky
    rectifier (a comparison with zero, the slope's broadcast, the product, the choice), the transposition and
    the merge of the last two axes, the final product with its bias row, the leaky rectifier again. -/
abbrev ops : List (HloOp τ sig (Elt F)) :=
  [ nullary main_c (constantI S_ 32 0#32),
    unary main_c main_v0 (broadcastInDim S8192 ![] bcast_S_S8192 : (⟨S_, .i32⟩ : BufTy).Contents (Elt F) → (⟨S8192, .i32⟩ : BufTy).Contents (Elt F)),
    binary main_arg5 main_v0 main_v1 (cmpi .slt : (⟨S8192, .i32⟩ : BufTy).Contents (Elt F) → (⟨S8192, .i32⟩ : BufTy).Contents (Elt F) → (⟨S8192, .i1⟩ : BufTy).Contents (Elt F)),
    nullary main_c_0 (constantI S_ 32 10000#32),
    unary main_c_0 main_v2 (broadcastInDim S8192 ![] bcast_S_S8192 : (⟨S_, .i32⟩ : BufTy).Contents (Elt F) → (⟨S8192, .i32⟩ : BufTy).Contents (Elt F)),
    binary main_arg5 main_v2 main_v3 (addi : (⟨S8192, .i32⟩ : BufTy).Contents (Elt F) → (⟨S8192, .i32⟩ : BufTy).Contents (Elt F) → (⟨S8192, .i32⟩ : BufTy).Contents (Elt F)),
    ternary main_v1 main_v3 main_arg5 main_v4 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v4 main_v5 (broadcastInDim S8192x1 ![0] bcast_S8192_S8192x1_0 : (⟨S8192, .i32⟩ : BufTy).Contents (Elt F) → (⟨S8192x1, .i32⟩ : BufTy).Contents (Elt F)),
    binary main_arg0 main_v5 main_v6 ((fun x i => Host.gather gather_S14x10000x1536_S8192x1_S14x8192x1536_02_1_n_n_1_1_1411536 x i) : (⟨S14x10000x1536, .f32⟩ : BufTy).Contents (Elt F) → (⟨S8192x1, .i32⟩ : BufTy).Contents (Elt F) → (⟨S14x8192x1536, .f32⟩ : BufTy).Contents (Elt F)),
    binary main_v6 main_arg1 main_v7 ((fun l r => Host.dotGeneral dot_S14x8192x1536_S14x1536x128_S14x8192x128_2_1_1_2_0_0 none l r) : (⟨S14x8192x1536, .f32⟩ : BufTy).Contents (Elt F) → (⟨S14x1536x128, .f32⟩ : BufTy).Contents (Elt F) → (⟨S14x8192x128, .f32⟩ : BufTy).Contents (Elt F)),
    unary main_arg2 main_v8 (broadcastInDim S14x1x128 ![0, 2] bcast_S14x128_S14x1x128_0_2 : (⟨S14x128, .f32⟩ : BufTy).Contents (Elt F) → (⟨S14x1x128, .f32⟩ : BufTy).Contents (Elt F)),
    unary main_v8 main_v9 (broadcastInDim S14x8192x128 ![0, 1, 2] bcast_S14x1x128_S14x8192x128_0_1_2 : (⟨S14x1x128, .f32⟩ : BufTy).Contents (Elt F) → (⟨S14x8192x128, .f32⟩ : BufTy).Contents (Elt F)),
    binary main_v7 main_v9 main_v10 (addf : (⟨S14x8192x128, .f32⟩ : BufTy).Contents (Elt F) → (⟨S14x8192x128, .f32⟩ : BufTy).Contents (Elt F) → (⟨S14x8192x128, .f32⟩ : BufTy).Contents (Elt F)),
    nullary main_cst (constant S_ .f32 0x3C23D70A#32),
    TRef.nullary main_call0.cst (constant S_ .f32 0x00000000#32),
    TRef.unary main_call0.cst main_call0.v0 (broadcastInDim S14x8192x128 ![] bcast_S_S14x8192x128),
    TRef.binary (.of main_v10 : TRef sig (⟨S14x8192x128, .f32⟩ : BufTy)) main_call0.v0 main_call0.v1 (cmpf .oge),
    TRef.unary (.of main_cst : TRef sig (⟨S_, .f32⟩ : BufTy)) main_call0.v2 id,
    TRef.unary main_call0.v2 main_call0.v3 (broadcastInDim S14x8192x128 ![] bcast_S_S14x8192x128),
    TRef.binary main_call0.v3 (.of main_v10 : TRef sig (⟨S14x8192x128, .f32⟩ : BufTy)) main_call0.v4 mulf,
    TRef.ternary main_call0.v1 (.of main_v10 : TRef sig (⟨S14x8192x128, .f32⟩ : BufTy)) main_call0.v4 main_call0.call0.v0 select,
    unary main_v11 main_v12 ((transpose S8192x14x128 [1, 0, 2] · transposes_S14x8192x128_S8192x14x128_1_0_2) : (⟨S14x8192x128, .f32⟩ : BufTy).Contents (Elt F) → (⟨S8192x14x128, .f32⟩ : BufTy).Contents (Elt F)),
    reshape main_v12 main_v13 rfl shapeCasts_S8192x14x128_S8192x1792,
    binary main_v13 main_arg3 main_v14 ((fun l r => Host.dotGeneral dot_S8192x1792_S1792x128_S8192x128_1_0_0_1_n_n none l r) : (⟨S8192x1792, .f32⟩ : BufTy).Contents (Elt F) → (⟨S1792x128, .f32⟩ : BufTy).Contents (Elt F) → (⟨S8192x128, .f32⟩ : BufTy).Contents (Elt F)),
    unary main_arg4 main_v15 (broadcastInDim S1x128 ![1] bcast_S128_S1x128_1 : (⟨S128, .f32⟩ : BufTy).Contents (Elt F) → (⟨S1x128, .f32⟩ : BufTy).Contents (Elt F)),
    unary main_v15 main_v16 (broadcastInDim S8192x128 ![0, 1] bcast_S1x128_S8192x128_0_1 : (⟨S1x128, .f32⟩ : BufTy).Contents (Elt F) → (⟨S8192x128, .f32⟩ : BufTy).Contents (Elt F)),
    binary main_v14 main_v16 main_v17 (addf : (⟨S8192x128, .f32⟩ : BufTy).Contents (Elt F) → (⟨S8192x128, .f32⟩ : BufTy).Contents (Elt F) → (⟨S8192x128, .f32⟩ : BufTy).Contents (Elt F)),
    nullary main_cst_1 (constant S_ .f32 0x3C23D70A#32),
    TRef.nullary main_call1.cst (constant S_ .f32 0x00000000#32),
    TRef.unary main_call1.cst main_call1.v0 (broadcastInDim S8192x128 ![] bcast_S_S8192x128),
    TRef.binary (.of main_v17 : TRef sig (⟨S8192x128, .f32⟩ : BufTy)) main_call1.v0 main_call1.v1 (cmpf .oge),
    TRef.unary (.of main_cst_1 : TRef sig (⟨S_, .f32⟩ : BufTy)) main_call1.v2 id,
    TRef.unary main_call1.v2 main_call1.v3 (broadcastInDim S8192x128 ![] bcast_S_S8192x128),
    TRef.binary main_call1.v3 (.of main_v17 : TRef sig (⟨S8192x128, .f32⟩ : BufTy)) main_call1.v4 mulf,
    TRef.ternary main_call1.v1 (.of main_v17 : TRef sig (⟨S8192x128, .f32⟩ : BufTy)) main_call1.v4 main_call1.call0.v0 select ]

set_option maxRecDepth 2048 in
/-- The program is that straight line: the called functions unfolded at their calls. -/
theorem main_eq (c : Dev nD) : main (F := F) c = seq ops := by
  simp only [main, fn_leaky_relu.body, fn_leaky_relu_0.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-! ## The reference's result as one function of the arguments -/

/-- The row indices as the gather reads them: a negative index counted from the end, then viewed as a column. -/
def rowsOf (g : IVec S8192 32) : IVec S8192x1 32 :=
  broadcastInDim S8192x1 ![0] bcast_S8192_S8192x1_0
    (select (cmpi .slt g (broadcastInDim S8192 ![] bcast_S_S8192 (constantI S_ 32 0#32)))
      (addi g (broadcastInDim S8192 ![] bcast_S_S8192 (constantI S_ 32 10000#32))) g)

/-- The gathered rows, one per batch entry and edge type. -/
def gathered (x : FVec F S14x10000x1536 .f32) (g : IVec S8192 32) : FVec F S14x8192x1536 .f32 :=
  Host.gather gather_S14x10000x1536_S8192x1_S14x8192x1536_02_1_n_n_1_1_1411536 x (rowsOf g)

/-- The leaky rectifier as the host spells it: where the value is at least zero the value, elsewhere the slope times it. -/
def lreluH (S : Shape) (hb : S_.BroadcastsInDim S (![] : Fin 0 → Fin S.rank)) (x : FVec F S .f32) : FVec F S .f32 :=
  select (cmpf .oge x (broadcastInDim S ![] hb (constant S_ .f32 0x00000000#32))) x
    (mulf (broadcastInDim S ![] hb (id (constant S_ .f32 0x3C23D70A#32))) x)

/-- The fourteen edge layers: per edge type the gathered rows times that type's weights, plus its bias row, rectified. -/
def edgeLayers (G : FVec F S14x8192x1536 .f32) (W : FVec F S14x1536x128 .f32) (b : FVec F S14x128 .f32) : FVec F S14x8192x128 .f32 :=
  lreluH S14x8192x128 bcast_S_S14x8192x128
    (addf (Host.dotGeneral dot_S14x8192x1536_S14x1536x128_S14x8192x128_2_1_1_2_0_0 none G W)
      (broadcastInDim S14x8192x128 ![0, 1, 2] bcast_S14x1x128_S14x8192x128_0_1_2
        (broadcastInDim S14x1x128 ![0, 2] bcast_S14x128_S14x1x128_0_2 b)))

/-- The edge types' outputs laid side by side along the feature axis, batch entry first. -/
def merged (h : FVec F S14x8192x128 .f32) : FVec F S8192x1792 .f32 :=
  shapeCast S8192x1792 (transpose S8192x14x128 [1, 0, 2] h transposes_S14x8192x128_S8192x14x128_1_0_2)
    shapeCasts_S8192x14x128_S8192x1792

/-- The last layer: the merged features times the weights, plus the bias row, rectified. -/
def outOf (a : FVec F S8192x1792 .f32) (Wh : FVec F S1792x128 .f32) (bh : FVec F S128 .f32) : FVec F S8192x128 .f32 :=
  lreluH S8192x128 bcast_S_S8192x128
    (addf (Host.dotGeneral dot_S8192x1792_S1792x128_S8192x128_1_0_0_1_n_n none a Wh)
      (broadcastInDim S8192x128 ![0, 1] bcast_S1x128_S8192x128_0_1 (broadcastInDim S1x128 ![1] bcast_S128_S1x128_1 bh)))

/-- What the reference computes from its six arguments. -/
def refOut (x : FVec F S14x10000x1536 .f32) (W : FVec F S14x1536x128 .f32) (b : FVec F S14x128 .f32)
    (Wh : FVec F S1792x128 .f32) (bh : FVec F S128 .f32) (g : IVec S8192 32) : FVec F S8192x128 .f32 :=
  outOf (merged (edgeLayers (gathered x g) W b)) Wh bh

attribute [local irreducible] Host.gather in
set_option maxRecDepth 8192 in
/-- The operations' fold at the result buffer is that function of the arguments' contents: each operation's result read
    at its own buffer, the typed references' transports the identity at these literal references. -/
theorem out_eq (V : Valuation τ sig (Elt F)) :
    after (ops (F := F)) V (Proc.devRef .tc main_v18)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  after_results_simp
  rfl

/-- Every weakly fair execution of the reference terminates with the result at that function of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v18).trans (out_eq _),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Cert.ReferenceIdeal.RefRun

end
-- ==== Proof.RefValue.lean ====
/-
  The reference's result, entry by entry.

  Each host operation is read at one index.  The leaky rectifier acts entry by entry.  The product of the gathered rows
  with the weights, which keeps the edge type as a shared leading axis, is at (e, n, d) the sum over the 1536 features i of
  (gathered at (e, n, i)) · (weights at (e, i, d)); the bias, broadcast in two steps, is read at (e, d).  The
  transposition exchanges the first two axes and the merge of the last two puts edge type e, position d at feature
  128 · e + d.  The last product is at (n, k) the sum over the 1792 features.  So the reference's result is the
  specification applied to the gathered array.
-/
import proofs.«140699_j36077725287020_2_alg».proof.Proof.RefRun
import proofs.«140699_j36077725287020_2_alg».proof.Proof.LibMatmulRows
import proofs.«140699_j36077725287020_2_alg».proof.Proof.Spec
import Idealize.ShloMosaic.Lib.Pipeline.Value
import Idealize.ShloMosaic.Lib.ValueLayout

noncomputable section

namespace Cert.ReferenceIdeal.RefValue

open Cert.ReferenceIdeal Cert.ReferenceIdeal.Gen Cert.ReferenceIdeal.RefRun Idealize.ShloMosaic Idealize.ShloMosaic.ValueIdx

/-- The host's leaky rectifier acts entry by entry. -/
theorem lreluH_apply (S : Shape) (hb : S_.BroadcastsInDim S (![] : Fin 0 → Fin S.rank)) (x : FVec Ideal S .f32) (i : S.Idx) :
    lreluH (F := Ideal) S hb x i = Cert.Spec.lrelu (x i) := rfl

/-- The bias of the edge layers, broadcast over the batch, read at (e, n, d). -/
theorem bias3_apply (b : FVec Ideal S14x128 .f32) (e : Fin 14) (n : Fin 8192) (d : Fin 128) :
    broadcastInDim S14x8192x128 ![0, 1, 2] bcast_S14x1x128_S14x8192x128_0_1_2
      (broadcastInDim S14x1x128 ![0, 2] bcast_S14x128_S14x1x128_0_2 b) (ix3 e n d) = b (ix2 e d) := by
  refine (broadcastInDim_apply _ _ _ (ix3 e n d) (ix3 e (0 : Fin 1) d) fun a => ?_).trans ?_
  · match a with
    | ⟨0, _⟩ => rfl
    | ⟨1, _⟩ => rfl
    | ⟨2, _⟩ => rfl
  · refine broadcastInDim_apply _ _ _ (ix3 e (0 : Fin 1) d) (ix2 e d) fun a => ?_
    match a with
    | ⟨0, _⟩ => rfl
    | ⟨1, _⟩ => rfl

/-- The bias of the last layer, broadcast over the batch, read at (n, k). -/
theorem bias2_apply (bh : FVec Ideal S128 .f32) (n : Fin 8192) (k : Fin 128) :
    broadcastInDim S8192x128 ![0, 1] bcast_S1x128_S8192x128_0_1 (broadcastInDim S1x128 ![1] bcast_S128_S1x128_1 bh) (ix2 n k)
      = bh (ix1 k) := by
  refine (broadcastInDim_apply _ _ _ (ix2 n k) (ix2 (0 : Fin 1) k) fun a => ?_).trans ?_
  · match a with
    | ⟨0, _⟩ => rfl
    | ⟨1, _⟩ => rfl
  · refine broadcastInDim_apply _ _ _ (ix2 (0 : Fin 1) k) (ix1 k) fun a => ?_
    match a with
    | ⟨0, _⟩ => rfl

/-- The edge layers' product keeps the edge type as a shared axis: one contracted axis, of 1536 features. -/
theorem edge_contr_rank : dot_S14x8192x1536_S14x1536x128_S14x8192x128_2_1_1_2_0_0.contr.rank = 1 :=
  Cert.DotRead.contr_rank_one _ (cl := 2) rfl

theorem edge_contr_size :
    dot_S14x8192x1536_S14x1536x128_S14x8192x128_2_1_1_2_0_0.contr.size ⟨0, by rw [edge_contr_rank]; exact Nat.one_pos⟩ = 1536 :=
  Cert.DotRead.contr_size_one _ (cl := 2) rfl

/-- The edge layers at (e, n, d). -/
theorem edgeLayers_apply (G : FVec Ideal S14x8192x1536 .f32) (W : FVec Ideal S14x1536x128 .f32) (b : FVec Ideal S14x128 .f32)
    (e : Fin 14) (n : Fin 8192) (d : Fin 128) :
    edgeLayers (F := Ideal) G W b (ix3 e n d) = Cert.Spec.hid G W b e n d := by
  unfold edgeLayers Cert.Spec.hid
  rw [lreluH_apply]
  refine congrArg Cert.Spec.lrelu ?_
  rw [addf_apply, bias3_apply]
  refine congrArg (· + b (ix2 e d)) ?_
  refine Cert.DotRead.dotGeneral_read _ 1536 edge_contr_rank edge_contr_size none _ G W (ix3 e n d)
    (fun i => ix3 e n i) (fun i => ix3 e i d) (fun i => ?_) (fun i => ?_)
  · funext a
    apply Fin.ext
    match a with
    | ⟨0, _⟩ =>
      exact Cert.DotRead.lhs_batch_val _ (ix3 e n d) _ 0 (List.mem_singleton.mpr rfl) 0 rfl
    | ⟨1, _⟩ =>
      exact Cert.DotRead.lhs_free_val _ (ix3 e n d) _ 1 (by decide) (List.mem_singleton.mpr rfl) 1 rfl
    | ⟨2, _⟩ =>
      exact Cert.DotRead.lhs_contr_val _ 1536 edge_contr_rank edge_contr_size (cl := 2) rfl (ix3 e n d) i
  · funext a
    apply Fin.ext
    match a with
    | ⟨0, _⟩ =>
      exact Cert.DotRead.rhs_batch_val _ (ix3 e n d) _ 0 (List.mem_singleton.mpr rfl) 0 rfl
    | ⟨1, _⟩ =>
      exact Cert.DotRead.rhs_contr_val _ 1536 edge_contr_rank edge_contr_size (cr := 1) rfl (ix3 e n d) i
    | ⟨2, _⟩ =>
      exact Cert.DotRead.rhs_free_val _ (ix3 e n d) _ 2 (by decide) (List.mem_singleton.mpr rfl) 2 rfl

/-- The merged features at (n, j): edge type j / 128, position j mod 128. -/
theorem merged_apply (h : FVec Ideal S14x8192x128 .f32) (n : Fin 8192) (j : Fin 1792) :
    merged (F := Ideal) h (ix2 n j) = h (ix3 (Cert.Spec.featE j) n (Cert.Spec.featD j)) := by
  unfold merged
  refine (shapeCast_apply _ _ (ix2 n j) (ix3 n (Cert.Spec.featE j) (Cert.Spec.featD j)) ?_).trans ?_
  · rw [Shape.rowMajor_val_three, Shape.rowMajor_val_two]
    have := Cert.Spec.feat_val j
    show (n.val * 14 + (Cert.Spec.featE j).val) * 128 + (Cert.Spec.featD j).val = n.val * 1792 + j.val
    omega
  · refine transpose_apply _ _ _ (ix3 n (Cert.Spec.featE j) (Cert.Spec.featD j)) (ix3 (Cert.Spec.featE j) n (Cert.Spec.featD j)) fun a => ?_
    match a with
    | ⟨0, _⟩ => rfl
    | ⟨1, _⟩ => rfl
    | ⟨2, _⟩ => rfl

/-- The last layer at (n, k). -/
theorem outOf_apply (a : FVec Ideal S8192x1792 .f32) (Wh : FVec Ideal S1792x128 .f32) (bh : FVec Ideal S128 .f32)
    (n : Fin 8192) (k : Fin 128) :
    outOf (F := Ideal) a Wh bh (ix2 n k)
      = Cert.Spec.lrelu ((∑ j : Fin 1792, a (ix2 n j) * Wh (ix2 j k)) + bh (ix1 k)) := by
  unfold outOf
  rw [lreluH_apply]
  refine congrArg Cert.Spec.lrelu ?_
  rw [addf_apply, bias2_apply]
  refine congrArg (· + bh (ix1 k)) ?_
  exact Cert.MatmulRows.dotGeneral_ix2 _ rfl rfl rfl rfl rfl rfl none _ a Wh n k

/-- The reference's result is the specification applied to the gathered array. -/
theorem refOut_apply (x : FVec Ideal S14x10000x1536 .f32) (W : FVec Ideal S14x1536x128 .f32) (b : FVec Ideal S14x128 .f32)
    (Wh : FVec Ideal S1792x128 .f32) (bh : FVec Ideal S128 .f32) (g : IVec S8192 32) (n : Fin 8192) (k : Fin 128) :
    refOut (F := Ideal) x W b Wh bh g (ix2 n k) = Cert.Spec.out (gathered (F := Ideal) x g) W b Wh bh n k := by
  unfold refOut Cert.Spec.out
  rw [outOf_apply]
  refine congrArg (fun s => Cert.Spec.lrelu (s + bh (ix1 k))) ?_
  refine Finset.sum_congr rfl fun j _ => ?_
  rw [merged_apply, edgeLayers_apply]

end Cert.ReferenceIdeal.RefValue

end
-- ==== Proof.lean ====
/-
  The kernel against its reference: a gather of feature rows, fourteen dense layers with a leaky rectifier, their outputs
  laid side by side, one more dense layer with the rectifier.

  On the extended reals both programs compute, at batch row n and output k, the same expression of the gathered rows
  (Proof/Spec.lean).  The reference does it on whole arrays; its run and its result entry by entry are in Proof/RefRun.lean
  and Proof/RefValue.lean.  The kernel does it 256 batch rows at a time, keeping the fourteen layers' outputs of a block in
  a scratch buffer it fills column block by column block and reads back whole: Proof/KernelEdge.lean reads the body's
  arithmetic at an index, Proof/KernelBlock.lean the block one grid point writes back, Proof/KernelFinal.lean the result
  array after the run.  Both programs gather with the same operation on the same arguments, so the gathered arrays are
  one term and are never opened.  No law of arithmetic is needed beyond reading each operation at an index: the sums,
  products and the rectifier occur in the same order on both sides, so the inputs' finiteness is not used.  The kernel's
  idealization rewrote no operation, so there is nothing to preserve.
-/
import proofs.«140699_j36077725287020_2_alg».proof.Defs
import proofs.«140699_j36077725287020_2_alg».proof.Proof.Gen.Kernel
import proofs.«140699_j36077725287020_2_alg».proof.Proof.Gen.Kernel.Skeleton
import proofs.«140699_j36077725287020_2_alg».proof.Proof.Gen.Kernel.Launch
import proofs.«140699_j36077725287020_2_alg».proof.Proof.Gen.Kernel.Points
import proofs.«140699_j36077725287020_2_alg».proof.Proof.Gen.Kernel.Frame
import proofs.«140699_j36077725287020_2_alg».proof.Proof.Gen.KernelIdeal
import proofs.«140699_j36077725287020_2_alg».proof.Proof.Gen.KernelIdeal.Skeleton
import proofs.«140699_j36077725287020_2_alg».proof.Proof.Gen.KernelIdeal.Launch
import proofs.«140699_j36077725287020_2_alg».proof.Proof.Gen.KernelIdeal.Points
import proofs.«140699_j36077725287020_2_alg».proof.Proof.Gen.KernelIdeal.Frame
import proofs.«140699_j36077725287020_2_alg».proof.Proof.Gen.ReferenceIdeal
import proofs.«140699_j36077725287020_2_alg».proof.Proof.Gen.Pre_finite_inputs
import proofs.«140699_j36077725287020_2_alg».proof.Proof.KernelFinal
import proofs.«140699_j36077725287020_2_alg».proof.Proof.RefValue
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The two programs gather with one operation: the same dimension numbers on the same arguments. -/
theorem gathered_eq (x : FVec Ideal Cert.ReferenceIdeal.S14x10000x1536 .f32) (g : IVec Cert.ReferenceIdeal.S8192 32) :
    Cert.ReferenceIdeal.RefRun.gathered (F := Ideal) x g = Cert.KernelIdeal.Bridge.gathered x g := rfl

/-- The reference's result and the kernel's are one function of the six arguments: at (n, k) both are the specification
    applied to the gathered rows. -/
theorem result_eq (x : FVec Ideal Cert.ReferenceIdeal.S14x10000x1536 .f32) (W : FVec Ideal Cert.ReferenceIdeal.S14x1536x128 .f32)
    (b : FVec Ideal Cert.ReferenceIdeal.S14x128 .f32) (Wh : FVec Ideal Cert.ReferenceIdeal.S1792x128 .f32)
    (bh : FVec Ideal Cert.ReferenceIdeal.S128 .f32) (g : IVec Cert.ReferenceIdeal.S8192 32) :
    Cert.ReferenceIdeal.RefRun.refOut (F := Ideal) x W b Wh bh g = Cert.KernelIdeal.Bridge.kernelOut x W b Wh bh g := by
  funext i
  obtain ⟨n, k, rfl⟩ : ∃ (n : Fin 8192) (k : Fin 128), i = ix2 n k := ⟨i 0, i 1, eq_ix2 i⟩
  rw [Cert.ReferenceIdeal.RefValue.refOut_apply]
  exact congrArg (fun G => Cert.Spec.out G W b Wh bh n k) (gathered_eq x g)

/-- From memories agreeing on the arguments both programs end with that one function of them in their result arrays. -/
theorem algebraic : Cert.algebraic_KernelIdeal_ReferenceIdeal := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2]
  exact result_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
